-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S131072 : Shape := ⟨1, ![131072]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel

variable [Facts]

def fn {F : FTy → Type} [FloatOps F] (main_arg0 : FVec F S131072x256 .f32) (main_arg1 : FVec F S131072x256 .f32) (main_arg2 : IVec S131072 32) (main_arg3 : IVec S131072 32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S131072x256 .f32 := Host.absf main_arg1
  let main_cst_0 : FVec F S_ .f32 := constant S_ .f32 0x7F800000#32
  let main_v5 : FVec F S131072x256 .f32 := broadcastInDim S131072x256 ![] bcast_S_S131072x256 main_cst_0
  let main_v6 : IVec S131072x256 1 := cmpf .olt main_v4 main_v5
  let main_c_1 : IVec S_ 1 := constantI S_ 1 1#1
  let main_v7 : IVec S_ 1 := (fun x v => Host.reduce IntOp.andi x v reducesTo_S131072x256_S_d0_1 h_S_) main_v6 main_c_1
  let main_v8 : IVec S_ 1 := andi main_v3 main_v7
  main_v8
-- ==== Kernel.lean ====
abbrev S131072x256 : Shape := ⟨2, ![131072, 256]⟩
abbrev S131072 : Shape := ⟨1, ![131072]⟩
abbrev S1x1 : Shape := ⟨2, ![1, 1]⟩
abbrev S4096x256 : Shape := ⟨2, ![4096, 256]⟩
abbrev S64x64x256 : Shape := ⟨3, ![64, 64, 256]⟩
abbrev S64x64 : Shape := ⟨2, ![64, 64]⟩
abbrev S64x64x1 : Shape := ⟨3, ![64, 64, 1]⟩
abbrev S64x64x64 : Shape := ⟨3, ![64, 64, 64]⟩
abbrev S1x64x64 : Shape := ⟨3, ![1, 64, 64]⟩
abbrev S64 : Shape := ⟨1, ![64]⟩
abbrev S1x64 : Shape := ⟨2, ![1, 64]⟩
abbrev S1 : Shape := ⟨1, ![1]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S131072, .i32⟩
  | .hbm, ⟨3, _⟩ => ⟨S131072, .i32⟩
  | .hbm, ⟨4, _⟩ => ⟨S1x1, .f32⟩
  | .hbm, ⟨5, _⟩ => ⟨S_, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S1x1, .f32⟩
  | .local _ .vmem, ⟨5, _⟩ => ⟨S1x1, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v61 : BitVec 1 := Scalar.cmpi .eq arg0 c31_i32
  let v62 : BitVec 32 := Scalar.extui v61
  let c0_i32_20 : BitVec 32 := 0#32
  let v63 : BitVec 1 := Scalar.cmpi .ne v62 c0_i32_20
  v63

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x256_S4096x256_0_0 : ∀ a, (![0, 0] : Fin 2 → Nat) a + S4096x256.size a ≤ S4096x256.size a
  h_S4096x256 : 0 < S4096x256.numel
  shapeCasts_S4096x256_S64x64x256 : S4096x256.ShapeCasts S64x64x256
  reduces_S64x64x256_S64x64 : S64x64x256.Reduces [2] S64x64
  shapeCasts_S64x64_S64x64x1 : S64x64.ShapeCasts S64x64x1
  broadcasts_S64x64x1_S64x64x256 : S64x64x1.Broadcasts S64x64x256
  reduces_S64x64x64_S64x64 : S64x64x64.Reduces [2] S64x64
  broadcasts_S64x64x1_S64x64x64 : S64x64x1.Broadcasts S64x64x64
  iota_S64x64_d0_w32 : S64x64.Iotas .tc 32 [0]
  iota_S64x64_d1_w32 : S64x64.Iotas .tc 32 [1]
  natLt_1_32 : 1 < 32
  shapeCasts_S64x64_S1x64x64 : S64x64.ShapeCasts S1x64x64
  broadcasts_S1x64x64_S64x64x64 : S1x64x64.Broadcasts S64x64x64
  reduces_S64x64_S64 : S64x64.Reduces [1] S64
  shapeCasts_S64_S1x64 : S64.ShapeCasts S1x64
  reduces_S1x64_S1 : S1x64.Reduces [1] S1
  shapeCasts_S1_S1x1 : S1.ShapeCasts S1x1
  inpos_S1x1_p0_0 : ∀ a, (![0, 0] : Fin 2 → Nat) a < S1x1.size a
  shapeCasts_S1x1_S_ : S1x1.ShapeCasts S_
  dot_S64x64x256_S64x64x256_S64x64x64_2_2_1_1_0_0_wf : DotDims.WF S64x64x256 S64x64x256 S64x64x64 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S131072x256.size a
  hwx0_1 : ∀ i : grid0.Coords, EltTy.bits .f32 = 32 ∨ (Rect.block (s := S131072x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S64x64x256_S64x64x256_S64x64x64_2_2_1_1_0_0 : DotDims S64x64x256 S64x64x256 S64x64x64 where
  lhsContracting := [2]
  rhsContracting := [2]
  lhsNonContracting := [1]
  rhsNonContracting := [1]
  lhsBatch := [0]
  rhsBatch := [0]
  wf := dot_S64x64x256_S64x64x256_S64x64x64_2_2_1_1_0_0_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S131072x256 : Shape := ⟨2, ![131072, 256]⟩
abbrev S131072 : Shape := ⟨1, ![131072]⟩
abbrev S2048x64x256 : Shape := ⟨3, ![2048, 64, 256]⟩
abbrev S_ : Shape := ⟨0, ![]⟩
abbrev S2048x64 : Shape := ⟨2, ![2048, 64]⟩
abbrev S2048x64x1 : Shape := ⟨3, ![2048, 64, 1]⟩
abbrev S2048x64x64 : Shape := ⟨3, ![2048, 64, 64]⟩
abbrev S64 : Shape := ⟨1, ![64]⟩
abbrev S64x1 : Shape := ⟨2, ![64, 1]⟩
abbrev S64x2 : Shape := ⟨2, ![64, 2]⟩
abbrev S2048 : Shape := ⟨1, ![2048]⟩

abbrev nBuf : Space → Nat
  | .hbm => 75
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S131072, .i32⟩
  | .hbm, ⟨3, _⟩ => ⟨S131072, .i32⟩
  | .hbm, ⟨4, _⟩ => ⟨S2048x64x256, .f32⟩
  | .hbm, ⟨5, _⟩ => ⟨S2048x64x256, .f32⟩
  | .hbm, ⟨6, _⟩ => ⟨S_, .f32⟩
  | .hbm, ⟨7, _⟩ => ⟨S2048x64, .f32⟩
  | .hbm, ⟨8, _⟩ => ⟨S2048x64x1, .f32⟩
  | .hbm, ⟨9, _⟩ => ⟨S2048x64x1, .f32⟩
  | .hbm, ⟨10, _⟩ => ⟨S_, .f32⟩
  | .hbm, ⟨11, _⟩ => ⟨S2048x64x1, .f32⟩
  | .hbm, ⟨12, _⟩ => ⟨S2048x64x1, .f32⟩
  | .hbm, ⟨13, _⟩ => ⟨S2048x64x256, .f32⟩
  | .hbm, ⟨14, _⟩ => ⟨S2048x64x256, .f32⟩
  | .hbm, ⟨15, _⟩ => ⟨S2048x64x256, .f32⟩
  | .hbm, ⟨16, _⟩ => ⟨S2048x64x256, .f32⟩
  | .hbm, ⟨17, _⟩ => ⟨S_, .f32⟩
  | .hbm, ⟨18, _⟩ => ⟨S2048x64, .f32⟩
  | .hbm, ⟨19, _⟩ => ⟨S2048x64x1, .f32⟩
  | .hbm, ⟨20, _⟩ => ⟨S2048x64x1, .f32⟩
  | .hbm, ⟨21, _⟩ => ⟨S_, .f32⟩
  | .hbm, ⟨22, _⟩ => ⟨S2048x64x1, .f32⟩
  | .hbm, ⟨23, _⟩ => ⟨S2048x64x1, .f32⟩
  | .hbm, ⟨24, _⟩ => ⟨S2048x64x256, .f32⟩
  | .hbm, ⟨25, _⟩ => ⟨S2048x64x256, .f32⟩
  | .hbm, ⟨26, _⟩ => ⟨S2048x64x64, .f32⟩
  | .hbm, ⟨27, _⟩ => ⟨S_, .f32⟩
  | .hbm, ⟨28, _⟩ => ⟨S2048x64x64, .f32⟩
  | .hbm, ⟨29, _⟩ => ⟨S2048x64x64, .f32⟩
  | .hbm, ⟨30, _⟩ => ⟨S_, .f32⟩
  | .hbm, ⟨31, _⟩ => ⟨S2048x64, .f32⟩
  | .hbm, ⟨32, _⟩ => ⟨S_, .f32⟩
  | .hbm, ⟨33, _⟩ => ⟨S2048x64, .f32⟩
  | .hbm, ⟨34, _⟩ => ⟨S2048x64, .f32⟩
  | .hbm, ⟨35, _⟩ => ⟨S2048x64x1, .f32⟩
  | .hbm, ⟨36, _⟩ => ⟨S2048x64x64, .f32⟩
  | .hbm, ⟨37, _⟩ => ⟨S2048x64x64, .f32⟩
  | .hbm, ⟨38, _⟩ => ⟨S2048x64x64, .f32⟩
  | .hbm, ⟨39, _⟩ => ⟨S_, .f32⟩
  | .hbm, ⟨40, _⟩ => ⟨S2048x64, .f32⟩
  | .hbm, ⟨41, _⟩ => ⟨S2048x64x1, .f32⟩
  | .hbm, ⟨42, _⟩ => ⟨S2048x64x1, .f32⟩
  | .hbm, ⟨43, _⟩ => ⟨S2048x64x64, .f32⟩
  | .hbm, ⟨44, _⟩ => ⟨S2048x64x64, .f32⟩
  | .hbm, ⟨45, _⟩ => ⟨S64, .i32⟩
  | .hbm, ⟨46, _⟩ => ⟨S64, .i32⟩
  | .hbm, ⟨47, _⟩ => ⟨S_, .i32⟩
  | .hbm, ⟨48, _⟩ => ⟨S64, .i32⟩
  | .hbm, ⟨49, _⟩ => ⟨S64, .i1⟩
  | .hbm, ⟨50, _⟩ => ⟨S_, .i32⟩
  | .hbm, ⟨51, _⟩ => ⟨S64, .i32⟩
  | .hbm, ⟨52, _⟩ => ⟨S64, .i32⟩
  | .hbm, ⟨53, _⟩ => ⟨S64, .i32⟩
  | .hbm, ⟨54, _⟩ => ⟨S_, .i32⟩
  | .hbm, ⟨55, _⟩ => ⟨S64, .i32⟩
  | .hbm, ⟨56, _⟩ => ⟨S64, .i1⟩
  | .hbm, ⟨57, _⟩ => ⟨S_, .i32⟩
  | .hbm, ⟨58, _⟩ => ⟨S64, .i32⟩
  | .hbm, ⟨59, _⟩ => ⟨S64, .i32⟩
  | .hbm, ⟨60, _⟩ => ⟨S64, .i32⟩
  | .hbm, ⟨61, _⟩ => ⟨S64x1, .i32⟩
  | .hbm, ⟨62, _⟩ => ⟨S64x1, .i32⟩
  | .hbm, ⟨63, _⟩ => ⟨S64x2, .i32⟩
  | .hbm, ⟨64, _⟩ => ⟨S2048x64, .f32⟩
  | .hbm, ⟨65, _⟩ => ⟨S_, .f32⟩
  | .hbm, ⟨66, _⟩ => ⟨S2048, .f32⟩
  | .hbm, ⟨67, _⟩ => ⟨S_, .f32⟩
  | .hbm, ⟨68, _⟩ => ⟨S2048, .f32⟩
  | .hbm, ⟨69, _⟩ => ⟨S2048, .f32⟩
  | .hbm, ⟨70, _⟩ => ⟨S2048, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call1_v0 : Ref sig .tc := ⟨.hbm, 16, rfl⟩
abbrev main_call1_cst : Ref sig .tc := ⟨.hbm, 17, rfl⟩
abbrev main_call1_v1 : Ref sig .tc := ⟨.hbm, 18, rfl⟩
abbrev main_call1_v2 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_call2_cst : Ref sig .tc := ⟨.hbm, 30, rfl⟩
abbrev main_call2_v0 : Ref sig .tc := ⟨.hbm, 31, rfl⟩
abbrev main_call2_cst_0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_v6 : Ref sig .tc := ⟨.hbm, 38, rfl⟩
abbrev main_call2_cst_1 : Ref sig .tc := ⟨.hbm, 39, rfl⟩
abbrev main_call2_v7 : Ref sig .tc := ⟨.hbm, 40, rfl⟩
abbrev main_call2_v8 : Ref sig .tc := ⟨.hbm, 41, rfl⟩
abbrev main_call2_v9 : Ref sig .tc := ⟨.hbm, 42, rfl⟩
abbrev main_call2_v10 : Ref sig .tc := ⟨.hbm, 43, rfl⟩
abbrev main_v15 : Ref sig .tc := ⟨.hbm, 44, rfl⟩
abbrev main_call3_v0 : Ref sig .tc := ⟨.hbm, 45, rfl⟩
abbrev main_call3_v1 : Ref sig .tc := ⟨.hbm, 46, rfl⟩
abbrev main_call3_c : Ref sig .tc := ⟨.hbm, 47, rfl⟩
abbrev main_call3_v2 : Ref sig .tc := ⟨.hbm, 48, rfl⟩
abbrev main_call3_v3 : Ref sig .tc := ⟨.hbm, 49, rfl⟩
abbrev main_call3_c_0 : Ref sig .tc := ⟨.hbm, 50, rfl⟩
abbrev main_call3_v4 : Ref sig .tc := ⟨.hbm, 51, rfl⟩
abbrev main_call3_v5 : Ref sig .tc := ⟨.hbm, 52, rfl⟩
abbrev main_call3_v6 : Ref sig .tc := ⟨.hbm, 53, rfl⟩
abbrev main_call3_c_1 : Ref sig .tc := ⟨.hbm, 54, rfl⟩
abbrev main_call3_v7 : Ref sig .tc := ⟨.hbm, 55, rfl⟩
abbrev main_call3_v8 : Ref sig .tc := ⟨.hbm, 56, rfl⟩
abbrev main_call3_c_2 : Ref sig .tc := ⟨.hbm, 57, rfl⟩
abbrev main_call3_v9 : Ref sig .tc := ⟨.hbm, 58, rfl⟩
abbrev main_call3_v10 : Ref sig .tc := ⟨.hbm, 59, rfl⟩
abbrev main_call3_v11 : Ref sig .tc := ⟨.hbm, 60, rfl⟩
abbrev main_call3_v12 : Ref sig .tc := ⟨.hbm, 61, rfl⟩
abbrev main_call3_v13 : Ref sig .tc := ⟨.hbm, 62, rfl⟩
abbrev main_call3_v14 : Ref sig .tc := ⟨.hbm, 63, rfl⟩
abbrev main_v16 : Ref sig .tc := ⟨.hbm, 64, rfl⟩
abbrev main_cst_2 : Ref sig .tc := ⟨.hbm, 65, rfl⟩
abbrev main_v17 : Ref sig .tc := ⟨.hbm, 66, rfl⟩
abbrev main_cst_3 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_cst_4 : Ref sig .tc := ⟨.hbm, 71, rfl⟩
abbrev main_v21 : Ref sig .tc := ⟨.hbm, 72, rfl⟩
abbrev main_cst_5 : Ref sig .tc := ⟨.hbm, 73, rfl⟩
abbrev main_v22 : Ref sig .tc := ⟨.hbm, 74, rfl⟩

abbrev nD : Nat := 1
abbrev τ : Topo := Topo.v7x

variable {F : FTy → Type} [FloatOps F]

class Facts₀ : Prop where
  shapeCasts_S131072x256_S2048x64x256 : S131072x256.ShapeCasts S2048x64x256
  reducesTo_S2048x64x256_S2048x64_d2 : S2048x64x256.ReducesTo [2] S2048x64
  h_S_ : 0 < S_.numel
  bcast_S2048x64_S2048x64x1_0_1 : S2048x64.BroadcastsInDim S2048x64x1 (![0, 1] : Fin 2 → Fin S2048x64x1.rank)
  bcast_S_S2048x64x1 : S_.BroadcastsInDim S2048x64x1 (![] : Fin 0 → Fin S2048x64x1.rank)
  bcast_S2048x64x1_S2048x64x256_0_1_2 : S2048x64x1.BroadcastsInDim S2048x64x256 (![0, 1, 2] : Fin 3 → Fin S2048x64x256.rank)
  bcast_S_S2048x64x64 : S_.BroadcastsInDim S2048x64x64 (![] : Fin 0 → Fin S2048x64x64.rank)
  reducesTo_S2048x64x64_S2048x64_d2 : S2048x64x64.ReducesTo [2] S2048x64
  bcast_S_S2048x64 : S_.BroadcastsInDim S2048x64 (![] : Fin 0 → Fin S2048x64.rank)
  bcast_S2048x64x1_S2048x64x64_0_1_2 : S2048x64x1.BroadcastsInDim S2048x64x64 (![0, 1, 2] : Fin 3 → Fin S2048x64x64.rank)
  bcast_S_S64 : S_.BroadcastsInDim S64 (![] : Fin 0 → Fin S64.rank)
  bcast_S64_S64x1_0 : S64.BroadcastsInDim S64x1 (![0] : Fin 1 → Fin S64x1.rank)
  concatenates_S64x1_S64x1_S64x2_d1 : Shape.Concatenates [S64x1, S64x1] S64x2 1
  reducesTo_S2048x64_S2048_d1 : S2048x64.ReducesTo [1] S2048
  bcast_S_S2048 : S_.BroadcastsInDim S2048 (![] : Fin 0 → Fin S2048.rank)
  reducesTo_S2048_S_d0 : S2048.ReducesTo [0] S_
  dot_S2048x64x256_S2048x64x256_S2048x64x64_2_2_1_1_0_0_wf : DotDims.WF S2048x64x256 S2048x64x256 S2048x64x64 [2] [2] [1] [1] [0] [0]
  gather_S2048x64x64_S64x2_S2048x64_0_12_n_n_12_1_204811_wf : GatherDims.WF S2048x64x64 S64x2 S2048x64 [0] [1, 2] [] [1, 2] [] 1 ![2048, 1, 1]

variable [Facts₀]

def dot_S2048x64x256_S2048x64x256_S2048x64x64_2_2_1_1_0_0 : DotDims S2048x64x256 S2048x64x256 S2048x64x64 where
  lhsContracting := [2]
  rhsContracting := [2]
  lhsNonContracting := [1]
  rhsNonContracting := [1]
  lhsBatch := [0]
  rhsBatch := [0]
  wf := dot_S2048x64x256_S2048x64x256_S2048x64x64_2_2_1_1_0_0_wf
def gather_S2048x64x64_S64x2_S2048x64_0_12_n_n_12_1_204811 : GatherDims S2048x64x64 S64x2 S2048x64 where
  offsetDims := [0]
  collapsedSliceDims := [1, 2]
  operandBatchingDims := []
  startIndicesBatchingDims := []
  startIndexMap := [1, 2]
  indexVectorDim := 1
  sliceSizes := ![2048, 1, 1]
  wf := gather_S2048x64x64_S64x2_S2048x64_0_12_n_n_12_1_204811_wf

class Facts : Prop extends Facts₀ where

variable [Facts]
-- ==== Proof.Spec.lean ====
/-
  The mathematics of the contrastive loss, stated once over plain index types and the extended reals.

  A graph has 64 reactant rows and 64 product rows of 256 features. Each row is divided by its Euclidean norm
  clamped from below by a small positive constant; `sim a c` is the inner product of reactant row `a` with product
  row `c`, divided by the temperature; row `a` of `sim` is turned into log-probabilities by a log-softmax; the
  graph's loss is minus the mean of the diagonal log-probabilities, and the result is the mean of the 2048 graph
  losses.

  Two groupings of the log-softmax occur: `s c - (m + L)` and `(s c - m) - L`, with `m` the row maximum and `L` the
  logarithm of the sum of the shifted exponentials. On the extended reals `-(m + L) = -m - L` needs `m` finite
  (at `m = ⊤`, `L = ⊥` the two sides are `⊤` and `⊥`), so the equality of the two is proved for real rows: then every
  normalized entry is real (the clamped norm is at least the positive constant, hence nonzero, and the inverse of a
  nonzero extended real is real), every `sim` entry is real, and so is the maximum of a row.
-/
import Idealize.ShloMosaic.PureOps.Ideal
import Idealize.ShloMosaic.PureOps.Ideal.Laws
import Idealize.ShloMosaic.Lib.ValueIdx

noncomputable section

namespace Cert.Loss

open Idealize.ShloMosaic

/-! ## The three constants whose values matter -/

/-- The clamp of the norm is a positive real. -/
theorem eps_real : ∃ r : ℝ, 0 < r ∧ Ideal.ofBits .f32 0x2B8CBCCC#32 = (r : EReal) := by
  refine ⟨(9223372 : ℝ) * (2 : ℝ) ^ (-63 : ℤ), by positivity, ?_⟩
  simp [Ideal.ofBits, Ideal.ieee, -EReal.coe_mul]

/-- The temperature is not zero. -/
theorem tenth_ne_zero : Ideal.ofBits .f32 0x3DCCCCCD#32 ≠ 0 := by
  have h : Ideal.ofBits .f32 0x3DCCCCCD#32 = (((13421773 : ℝ) * (2 : ℝ) ^ (-27 : ℤ) : ℝ) : EReal) := by
    simp [Ideal.ofBits, Ideal.ieee, -EReal.coe_mul]
  rw [h]
  exact ne_of_gt (EReal.coe_pos.2 (by positivity))

/-- The start of the row maximum is the bottom of the order. -/
theorem ninf_bot : Ideal.ofBits .f32 0xFF800000#32 = ⊥ := by
  simp [Ideal.ofBits, Ideal.ieee]

/-! ## The loss -/

/-- A row's Euclidean norm, clamped from below. -/
def cnorm (x : Fin 256 → EReal) : EReal :=
  max (Ideal.sqrt (∑ d, x d * x d)) (Ideal.ofBits .f32 0x2B8CBCCC#32)

/-- A row divided by its clamped norm. -/
def unitRow (x : Fin 256 → EReal) (d : Fin 256) : EReal := Ideal.div (x d) (cnorm x)

/-- The scaled inner product of reactant row `a` and product row `c`. -/
def sim (r p : Fin 64 → Fin 256 → EReal) (a c : Fin 64) : EReal :=
  Ideal.div (∑ d, unitRow (r a) d * unitRow (p c) d) (Ideal.ofBits .f32 0x3DCCCCCD#32)

/-- The maximum of a row of 64 entries, folded from `-∞`. -/
def rowMax (s : Fin 64 → EReal) : EReal :=
  (Finset.univ : Finset (Fin 64)).fold max (Ideal.ofBits .f32 0xFF800000#32) s

/-- The logarithm of the sum of the exponentials of a row shifted by its maximum. -/
def logSumShift (s : Fin 64 → EReal) : EReal := Ideal.log (∑ c, Ideal.exp (s c - rowMax s))

/-- Log-softmax, shifting first: `(s c - m) - L`. -/
def lsm (s : Fin 64 → EReal) (c : Fin 64) : EReal := (s c - rowMax s) - logSumShift s

/-- Log-softmax, subtracting the log-sum-exp `m + L` at once: `s c - (m + L)`. -/
def lsmJoint (s : Fin 64 → EReal) (c : Fin 64) : EReal := s c - (rowMax s + logSumShift s)

/-- A graph's loss: minus the mean of the diagonal log-probabilities. -/
def graphLoss (r p : Fin 64 → Fin 256 → EReal) : EReal :=
  -(Ideal.div (∑ a, lsm (sim r p a) a) (Ideal.ofBits .f32 0x42800000#32))

/-- The same with the other grouping of the log-softmax. -/
def graphLossJoint (r p : Fin 64 → Fin 256 → EReal) : EReal :=
  -(Ideal.div (∑ a, lsmJoint (sim r p a) a) (Ideal.ofBits .f32 0x42800000#32))

/-- The mean over the 2048 graphs. -/
def total (R P : Fin 2048 → Fin 64 → Fin 256 → EReal) : EReal :=
  Ideal.div (∑ g, graphLoss (R g) (P g)) (Ideal.ofBits .f32 0x45000000#32)

/-- Row `a` of graph `g` in a flat array of 131072 rows: row `64 g + a`. -/
def rows (x : (⟨2, ![131072, 256]⟩ : Shape).Idx → EReal) (g : Fin 2048) (a : Fin 64) (d : Fin 256) : EReal :=
  x (ValueIdx.ix2 ⟨g.val * 64 + a.val, by have := g.isLt; have := a.isLt; omega⟩ d)

/-- Graph `b` of block `t` is graph `64 t + b`. -/
abbrev gidx (t : Fin 32) (b : Fin 64) : Fin 2048 := ⟨t.val * 64 + b.val, by have := t.isLt; have := b.isLt; omega⟩

/-! ## Finiteness -/

/-- The inverse of an extended real is real. -/
theorem inv_real (y : EReal) : ∃ r : ℝ, y⁻¹ = (r : EReal) := by
  induction y using EReal.rec with
  | bot => exact ⟨0, by simp⟩
  | coe r => exact ⟨r⁻¹, (EReal.coe_inv r).symm⟩
  | top => exact ⟨0, by simp⟩

/-- A real divided by a nonzero extended real is real. -/
theorem div_real (x y : EReal) (hx : ∃ r : ℝ, x = (r : EReal)) (hy : y ≠ 0) : ∃ r : ℝ, Ideal.div x y = (r : EReal) := by
  obtain ⟨a, rfl⟩ := hx
  obtain ⟨b, hb⟩ := inv_real y
  refine ⟨a * b, ?_⟩
  unfold Ideal.div
  rw [if_neg hy, hb, EReal.coe_mul]

/-- A finite sum of reals is real. -/
theorem sum_real {ι : Type} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r1, h1⟩ := hf a (Finset.mem_insert_self _ _)
    obtain ⟨r2, h2⟩ := ih (fun i hi => hf i (Finset.mem_insert_of_mem hi))
    exact ⟨r1 + r2, by rw [Finset.sum_insert ha, h1, h2, EReal.coe_add]⟩

/-- The clamped norm is at least the positive clamp, so it is not zero. -/
theorem cnorm_ne_zero (x : Fin 256 → EReal) : cnorm x ≠ 0 := by
  obtain ⟨e, he, heq⟩ := eps_real
  have h : (0 : EReal) < cnorm x := by
    unfold cnorm
    rw [heq]
    exact lt_of_lt_of_le (EReal.coe_pos.2 he) (le_max_right _ _)
  exact ne_of_gt h

/-- A real row divided by its clamped norm is real. -/
theorem unitRow_real (x : Fin 256 → EReal) (hx : ∀ d, ∃ r : ℝ, x d = (r : EReal)) (d : Fin 256) :
    ∃ r : ℝ, unitRow x d = (r : EReal) :=
  div_real _ _ (hx d) (cnorm_ne_zero x)

/-- The scaled inner product of real rows is real. -/
theorem sim_real (r p : Fin 64 → Fin 256 → EReal) (hr : ∀ a d, ∃ y : ℝ, r a d = (y : EReal))
    (hp : ∀ a d, ∃ y : ℝ, p a d = (y : EReal)) (a c : Fin 64) : ∃ y : ℝ, sim r p a c = (y : EReal) := by
  unfold sim
  refine div_real _ _ (sum_real _ _ fun d _ => ?_) tenth_ne_zero
  obtain ⟨u, hu⟩ := unitRow_real (r a) (hr a) d
  obtain ⟨v, hv⟩ := unitRow_real (p c) (hp c) d
  exact ⟨u * v, by rw [hu, hv, EReal.coe_mul]⟩

/-- The maximum of a row of reals is real. -/
theorem rowMax_real (s : Fin 64 → EReal) (hs : ∀ c, ∃ y : ℝ, s c = (y : EReal)) : ∃ y : ℝ, rowMax s = (y : EReal) := by
  have htop : rowMax s ≠ ⊤ := by
    refine ne_of_lt ((Finset.fold_max_lt ⊤).2 ⟨?_, fun c _ => ?_⟩)
    · rw [ninf_bot]; exact bot_lt_top
    · obtain ⟨y, hy⟩ := hs c
      rw [hy]; exact EReal.coe_lt_top y
  have hbot : rowMax s ≠ ⊥ := by
    refine ne_of_gt ((Finset.lt_fold_max ⊥).2 (Or.inr ⟨(0 : Fin 64), Finset.mem_univ _, ?_⟩))
    obtain ⟨y, hy⟩ := hs 0
    rw [hy]; exact EReal.bot_lt_coe y
  exact ⟨(rowMax s).toReal, (EReal.coe_toReal htop hbot).symm⟩

/-! ## The two groupings of the log-softmax agree on a row of reals -/

theorem lsmJoint_eq_lsm (s : Fin 64 → EReal) (hs : ∀ c, ∃ y : ℝ, s c = (y : EReal)) (c : Fin 64) :
    lsmJoint s c = lsm s c := by
  obtain ⟨m, hm⟩ := rowMax_real s hs
  unfold lsmJoint lsm
  rw [hm]
  calc s c - ((m : EReal) + logSumShift s) = s c + -((m : EReal) + logSumShift s) := sub_eq_add_neg _ _
    _ = s c + (-(m : EReal) - logSumShift s) := by
        rw [EReal.neg_add (Or.inl (EReal.coe_ne_bot m)) (Or.inl (EReal.coe_ne_top m))]
    _ = s c + (-(m : EReal) + -logSumShift s) := by rw [sub_eq_add_neg (-(m : EReal))]
    _ = (s c + -(m : EReal)) + -logSumShift s := (add_assoc _ _ _).symm
    _ = s c - (m : EReal) - logSumShift s := by rw [← sub_eq_add_neg, ← sub_eq_add_neg]

theorem graphLossJoint_eq (r p : Fin 64 → Fin 256 → EReal) (hr : ∀ a d, ∃ y : ℝ, r a d = (y : EReal))
    (hp : ∀ a d, ∃ y : ℝ, p a d = (y : EReal)) : graphLossJoint r p = graphLoss r p := by
  unfold graphLossJoint graphLoss
  refine congrArg (fun z => -(Ideal.div z _)) (Finset.sum_congr rfl fun a _ => ?_)
  exact lsmJoint_eq_lsm _ (sim_real r p hr hp a) a

/-! ## The diagonal picked by the identity mask, and the sum over graphs block by block -/

/-- Multiplying a row by a row that is one at `a` and zero elsewhere and summing picks entry `a`. -/
theorem diag_sum (f e : Fin 64 → EReal) (a : Fin 64) (h1 : e a = 1) (h0 : ∀ c, c ≠ a → e c = 0) :
    ∑ c, f c * e c = f a := by
  rw [Finset.sum_eq_single a (fun c _ hc => by rw [h0 c hc, mul_zero]) (fun h => absurd (Finset.mem_univ a) h),
    h1, mul_one]

/-- Summing block by block, 32 blocks of 64 graphs, is summing over the 2048 graphs. -/
theorem sum_blocks (f : Fin 2048 → EReal) : ∑ t : Fin 32, ∑ b : Fin 64, f (gidx t b) = ∑ g, f g := by
  rw [← Fintype.sum_prod_type (fun x : Fin 32 × Fin 64 => f (gidx x.1 x.2))]
  refine Fintype.sum_equiv (finProdFinEquiv : Fin 32 × Fin 64 ≃ Fin 2048) _ _ fun x => congrArg f (Fin.ext ?_)
  show x.1.val * 64 + x.2.val = x.2.val + 64 * x.1.val
  omega

end Cert.Loss

end
-- ==== Proof.RefValue.lean ====
/-
  The reference computation, read element by element down to the loss of the specification.

  Both [131072, 256] arguments are viewed as [2048, 64, 256]: element (g, a, d) is row 64 g + a, column d. Each row is
  divided by its Euclidean norm clamped from below; the inner products of the normalized reactant and product rows of
  a graph, divided by the temperature, form a [64, 64] matrix per graph; each of its rows is turned into
  log-probabilities (subtract the row maximum, then the logarithm of the sum of the exponentials); the diagonal of
  the result is read by a gather whose start indices are two copies of the row number; a graph's loss is minus the
  mean of its 64 diagonal entries and the result is the mean of the 2048 graph losses. Every sum starts from a zero
  that is dropped, the maximum with `-∞` after the row maximum is the identity, and the select that would add 64 to a
  negative row number never fires.
-/
import proofs.«143556_j11244224381067_1_alg».proof.Proof.RefReadPatched
import proofs.«143556_j11244224381067_1_alg».proof.Proof.Spec

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx
open Cert.Loss

abbrev Arg := (⟨S131072x256, .f32⟩ : BufTy).Contents (Elt Ideal)

/-! ## The reshape: element (g, a, d) of the [2048, 64, 256] view is row 64 g + a, column d -/

theorem idx_v0_ix3 (g : Fin 2048) (a : Fin 64) (d : Fin 256) :
    idx_main_v0 (ix3 g a d) = ix2 ⟨g.val * 64 + a.val, by have := g.isLt; have := a.isLt; omega⟩ d := by
  funext c
  match c with
  | ⟨0, _⟩ =>
    refine Fin.ext ?_
    show ((g.val * 64 + a.val) * 256 + d.val) / 256 = g.val * 64 + a.val
    have := d.isLt; omega
  | ⟨1, _⟩ =>
    refine Fin.ext ?_
    show ((g.val * 64 + a.val) * 256 + d.val) % 256 = d.val
    have := d.isLt; omega

theorem v0_at (x0 : Arg) (g : Fin 2048) (a : Fin 64) (d : Fin 256) :
    val_main_v0 (F := Ideal) x0 (ix3 g a d) = rows x0 g a d := by
  rw [val_main_v0_apply, idx_v0_ix3]; rfl

theorem v6_at (x1 : Arg) (g : Fin 2048) (a : Fin 64) (d : Fin 256) :
    val_main_v6 (F := Ideal) x1 (ix3 g a d) = rows x1 g a d := by
  rw [val_main_v6_apply]
  exact congrArg x1 (idx_v0_ix3 g a d)

/-! ## Indices of the intermediate arrays, by coordinates -/

theorem idx_red3 (g : Fin 2048) (a : Fin 64) (k : Fin 256) : idx_main_call0_v1 (ix2 g a) k = ix3 g a k := by
  funext c; match c with | ⟨0, _⟩ => rfl | ⟨1, _⟩ => rfl | ⟨2, _⟩ => rfl

theorem idx_red3' (g : Fin 2048) (a : Fin 64) (k : Fin 256) : idx_main_call1_v1 (ix2 g a) k = ix3 g a k := by
  funext c; match c with | ⟨0, _⟩ => rfl | ⟨1, _⟩ => rfl | ⟨2, _⟩ => rfl

theorem idx_unit2 (g : Fin 2048) (a : Fin 64) : idx_main_call0_v2 (ix3 g a (0 : Fin 1)) = ix2 g a := by
  funext c; match c with | ⟨0, _⟩ => rfl | ⟨1, _⟩ => rfl

theorem idx_unit2' (g : Fin 2048) (a : Fin 64) : idx_main_call1_v2 (ix3 g a (0 : Fin 1)) = ix2 g a := by
  funext c; match c with | ⟨0, _⟩ => rfl | ⟨1, _⟩ => rfl

theorem idx_bc256 (g : Fin 2048) (a : Fin 64) (d : Fin 256) : idx_main_v4 (ix3 g a d) = ix3 g a (0 : Fin 1) := by
  funext c; match c with | ⟨0, _⟩ => rfl | ⟨1, _⟩ => rfl | ⟨2, _⟩ => rfl

theorem idx_bc256' (g : Fin 2048) (a : Fin 64) (d : Fin 256) : idx_main_v10 (ix3 g a d) = ix3 g a (0 : Fin 1) := by
  funext c; match c with | ⟨0, _⟩ => rfl | ⟨1, _⟩ => rfl | ⟨2, _⟩ => rfl

/-! ## The clamped norm of a row and the normalized row -/

theorem sq_sum_at (x0 : Arg) (g : Fin 2048) (a : Fin 64) :
    val_main_call0_v1 (F := Ideal) x0 (ix2 g a) = ∑ d, rows x0 g a d * rows x0 g a d := by
  rw [val_main_call0_v1_apply, val_main_call0_cst_apply, Ideal.ofBits_def, Ideal.ofBits_zero_f32, zero_add]
  refine Finset.sum_congr rfl fun k _ => ?_
  rw [idx_red3, val_main_call0_v0_apply, v0_at]
  rfl

theorem sq_sum_at' (x1 : Arg) (g : Fin 2048) (a : Fin 64) :
    val_main_call1_v1 (F := Ideal) x1 (ix2 g a) = ∑ d, rows x1 g a d * rows x1 g a d := by
  rw [val_main_call1_v1_apply, val_main_call1_cst_apply, Ideal.ofBits_def, Ideal.ofBits_zero_f32, zero_add]
  refine Finset.sum_congr rfl fun k _ => ?_
  rw [idx_red3', val_main_call1_v0_apply, v6_at]
  rfl

theorem cnorm_at (x0 : Arg) (g : Fin 2048) (a : Fin 64) :
    val_main_v3 (F := Ideal) x0 (ix3 g a (0 : Fin 1)) = cnorm (rows x0 g a) := by
  rw [val_main_v3_apply, val_main_v1_apply, val_main_call0_v2_apply, val_main_v2_apply, val_main_cst_apply,
    idx_unit2, sq_sum_at]
  rfl

theorem cnorm_at' (x1 : Arg) (g : Fin 2048) (a : Fin 64) :
    val_main_v9 (F := Ideal) x1 (ix3 g a (0 : Fin 1)) = cnorm (rows x1 g a) := by
  rw [val_main_v9_apply, val_main_v7_apply, val_main_call1_v2_apply, val_main_v8_apply, val_main_cst_0_apply,
    idx_unit2', sq_sum_at']
  rfl

theorem unit_at (x0 : Arg) (g : Fin 2048) (a : Fin 64) (d : Fin 256) :
    val_main_v5 (F := Ideal) x0 (ix3 g a d) = unitRow (rows x0 g a) d := by
  rw [val_main_v5_apply, val_main_v4_apply, v0_at, idx_bc256, cnorm_at]
  rfl

theorem unit_at' (x1 : Arg) (g : Fin 2048) (a : Fin 64) (d : Fin 256) :
    val_main_v11 (F := Ideal) x1 (ix3 g a d) = unitRow (rows x1 g a) d := by
  rw [val_main_v11_apply, val_main_v10_apply, v6_at, idx_bc256', cnorm_at']
  rfl

/-! ## The scaled inner products -/

theorem sim_at (x0 x1 : Arg) (g : Fin 2048) (a c : Fin 64) :
    val_main_v14 (F := Ideal) x0 x1 (ix3 g a c) = sim (rows x0 g) (rows x1 g) a c := by
  have el : ∀ k, lidx_main_v12 (ix3 g a c) k = ix3 g a k := fun k => by
    funext e; match e with | ⟨0, _⟩ => rfl | ⟨1, _⟩ => rfl | ⟨2, _⟩ => rfl
  have er : ∀ k, ridx_main_v12 (ix3 g a c) k = ix3 g c k := fun k => by
    funext e; match e with | ⟨0, _⟩ => rfl | ⟨1, _⟩ => rfl | ⟨2, _⟩ => rfl
  rw [val_main_v14_apply, val_main_v13_apply, val_main_cst_1_apply, val_main_v12_apply]
  have hs : (∑ k : Fin 256, val_main_v5 (F := Ideal) x0 (lidx_main_v12 (ix3 g a c) k) * val_main_v11 (F := Ideal) x1 (ridx_main_v12 (ix3 g a c) k))
      = ∑ d, unitRow (rows x0 g a) d * unitRow (rows x1 g c) d :=
    Finset.sum_congr rfl fun k _ => by rw [el, er, unit_at, unit_at']
  rw [hs]
  rfl

/-! ## The diagonal gather -/

/-- A row number below 64, written as a 32-bit word, reads back as itself when the word is read signed. -/
theorem toInt_iota (a : Fin 64) : (BitVec.ofNat 32 a.val).toInt = (a.val : Int) := by
  have h := a.isLt
  rw [BitVec.toInt_eq_toNat_cond, BitVec.toNat_ofNat]
  have e : a.val % 2 ^ 32 = a.val := Nat.mod_eq_of_lt (by omega)
  rw [e, if_pos (by omega)]

/-- Such a word is not negative. -/
theorem iota_not_neg (a : Fin 64) : IntOp.cmpi .slt (BitVec.ofNat 32 a.val) 0#32 = 0#1 := by
  unfold IntOp.cmpi
  have h : (BitVec.ofNat 32 a.val).slt 0#32 = false := by
    rw [BitVec.slt, toInt_iota]
    simp
  simp only [h]
  rfl

abbrev gd := gather_S2048x64x64_S64x2_S2048x64_0_12_n_n_12_1_204811

/-- The gather whose start indices at row `a` are `(a, a)` reads the diagonal: result element `(g, a)` is the
    operand at `(g, a, a)`. Axis 0 of the operand is the result's offset axis; axes 1 and 2 are collapsed and take
    the two start indices, read signed and clamped into `[0, 63]`. -/
theorem gather_diag {α : Type} (y : S2048x64x64.Idx → α) (idx : IVec S64x2 32) (g : Fin 2048) (a : Fin 64)
    (h0 : idx (ix2 a (0 : Fin 2)) = BitVec.ofNat 32 a.val) (h1 : idx (ix2 a (1 : Fin 2)) = BitVec.ofNat 32 a.val) :
    Host.gather gd y idx (ix2 g a) = y (ix3 g a a) := by
  unfold Host.gather
  congr 1
  funext c
  refine Fin.ext ?_
  show gd.start (ix2 g a) idx c + gd.batchCoord (ix2 g a) c + gd.offCoord (ix2 g a) c = (ix3 g a a c).val
  rw [GatherDims.batchCoord_eq_zero _ _ _ List.not_mem_nil]
  match c with
  | ⟨0, _⟩ =>
    have hs : gd.start (ix2 g a) idx ⟨0, by decide⟩ = 0 := by
      unfold GatherDims.start
      rw [dif_neg (by decide)]
    have ho : gd.offCoord (ix2 g a) ⟨0, by decide⟩ = g.val := by
      unfold GatherDims.offCoord
      rw [dif_pos ((gd.mem_sKept _).2 ⟨by decide, by decide⟩)]
      rfl
    rw [hs, ho]
    show 0 + 0 + g.val = g.val
    omega
  | ⟨1, _⟩ =>
    have hm : (⟨1, by decide⟩ : Fin S2048x64x64.rank) ∈ gd.startIndexMap := by decide
    have ho : gd.offCoord (ix2 g a) ⟨1, by decide⟩ = 0 :=
      GatherDims.offCoord_eq_zero _ _ _ (fun h => ((gd.mem_sKept _).mp h).1 (by decide))
    have hsi : gd.siIdx (ix2 g a) ⟨List.idxOf (⟨1, by decide⟩ : Fin S2048x64x64.rank) gd.startIndexMap,
        List.idxOf_lt_length_iff.2 hm⟩ = ix2 a (0 : Fin 2) := by
      funext b; refine Fin.ext ?_
      match b with
      | ⟨0, _⟩ => rfl
      | ⟨1, _⟩ => rfl
    rw [ho]
    unfold GatherDims.start
    rw [dif_pos hm, hsi, h0, toInt_iota]
    show min (a.val : Int).toNat (64 - 1) + 0 + 0 = a.val
    have := a.isLt
    rw [Int.toNat_natCast]; omega
  | ⟨2, _⟩ =>
    have hm : (⟨2, by decide⟩ : Fin S2048x64x64.rank) ∈ gd.startIndexMap := by decide
    have ho : gd.offCoord (ix2 g a) ⟨2, by decide⟩ = 0 :=
      GatherDims.offCoord_eq_zero _ _ _ (fun h => ((gd.mem_sKept _).mp h).1 (by decide))
    have hsi : gd.siIdx (ix2 g a) ⟨List.idxOf (⟨2, by decide⟩ : Fin S2048x64x64.rank) gd.startIndexMap,
        List.idxOf_lt_length_iff.2 hm⟩ = ix2 a (1 : Fin 2) := by
      funext b; refine Fin.ext ?_
      match b with
      | ⟨0, _⟩ => rfl
      | ⟨1, _⟩ => rfl
    rw [ho]
    unfold GatherDims.start
    rw [dif_pos hm, hsi, h1, toInt_iota]
    show min (a.val : Int).toNat (64 - 1) + 0 + 0 = a.val
    have := a.isLt
    rw [Int.toNat_natCast]; omega

/-! ## The start indices of the gather: two copies of the row number -/

/-- Column 0 of the two-column concatenation is the first piece. -/
theorem concat_col0 (u v : S64x1.Idx → BitVec 32) (a : Fin 64) :
    concatenate S64x2 1 [⟨S64x1, u⟩, ⟨S64x1, v⟩] concatenates_S64x1_S64x1_S64x2_d1 (ix2 a (0 : Fin 2)) = u (ix2 a (0 : Fin 1)) :=
  concatenate_pair_apply_left (1 : Fin S64x2.rank) u v concatenates_S64x1_S64x1_S64x2_d1 (ix2 a (0 : Fin 2)) rfl (ix2 a (0 : Fin 1))
    (fun b => by match b with | ⟨0, _⟩ => rfl | ⟨1, _⟩ => rfl)

/-- Column 1 is the second piece. -/
theorem concat_col1 (u v : S64x1.Idx → BitVec 32) (a : Fin 64) :
    concatenate S64x2 1 [⟨S64x1, u⟩, ⟨S64x1, v⟩] concatenates_S64x1_S64x1_S64x2_d1 (ix2 a (1 : Fin 2)) = v (ix2 a (0 : Fin 1)) :=
  concatenate_pair_apply_right (1 : Fin S64x2.rank) u v concatenates_S64x1_S64x1_S64x2_d1 (ix2 a (1 : Fin 2)) rfl rfl (ix2 a (0 : Fin 1))
    (fun b hb => by
      match b with
      | ⟨0, _⟩ => rfl
      | ⟨1, _⟩ => exact absurd rfl hb)
    rfl

/-! ## The row maximum as a fold over the row -/

/-- The index of the [2048, 64, 64] array over `(g, a)` with `k` on the reduced last axis is `(g, a, k)`. -/
theorem lift_last (h : S2048x64x64.Reduces [2] S2048x64) (g : Fin 2048) (a k : Fin 64) :
    h.lift (ix2 g a) k = ix3 g a k := by
  funext c
  refine Fin.ext ?_
  match c with
  | ⟨0, _⟩ => rfl
  | ⟨1, _⟩ => rfl
  | ⟨2, _⟩ => rfl

/-- A max-reduce of a [2048, 64, 64] array over its last axis from `init`, at `(g, a)`: the fold of `max` over row `(g, a)`. -/
theorem rowmax_fold (y : S2048x64x64.Idx → EReal) (init : S_.Idx → EReal) (g : Fin 2048) (a : Fin 64) :
    Host.reduce (FloatOps.maximumf (F := Ideal) (φ := .f32)) y init reducesTo_S2048x64x64_S2048x64_d2 h_S_ (ix2 g a)
      = (Finset.univ : Finset (Fin 64)).fold max (init (Shape.Idx.first h_S_)) (fun k => y (ix3 g a k)) := by
  refine (Host.reduce_eq_fold_single (FloatOps.maximumf (F := Ideal) (φ := .f32)) y init
    reducesTo_S2048x64x64_S2048x64_d2 (by decide) h_S_ (ix2 g a)).trans ?_
  have hf : (y ∘ (Shape.Reduces.lift (by decide : S2048x64x64.Reduces [2] S2048x64) (ix2 g a))) = fun k : Fin 64 => y (ix3 g a k) :=
    funext fun k => congrArg y (lift_last _ g a k)
  rw [hf]
  rfl

/-- The index set of a one-axis array is the axis's range. -/
def idxEquiv1 {n : Nat} : (⟨1, ![n]⟩ : Shape).Idx ≃ Fin n where
  toFun i := i 0
  invFun := ix1
  left_inv i := (eq_ix1 i).symm
  right_inv _ := rfl

/-! ## The log-softmax of a row of inner products -/

theorem rowmax0_at (x0 x1 : Arg) (g : Fin 2048) (a : Fin 64) :
    val_main_call2_v0 (F := Ideal) x0 x1 (ix2 g a) = rowMax (sim (rows x0 g) (rows x1 g) a) := by
  unfold val_main_call2_v0
  rw [rowmax_fold, val_main_call2_cst_apply]
  have hf : (fun k : Fin 64 => val_main_v14 (F := Ideal) x0 x1 (ix3 g a k)) = sim (rows x0 g) (rows x1 g) a :=
    funext fun k => sim_at x0 x1 g a k
  rw [hf]
  rfl

/-- The maximum with `-∞` that follows the reduce changes nothing. -/
theorem rowmax_at (x0 x1 : Arg) (g : Fin 2048) (a : Fin 64) :
    val_main_call2_v2 (F := Ideal) x0 x1 (ix2 g a) = rowMax (sim (rows x0 g) (rows x1 g) a) := by
  rw [val_main_call2_v2_apply, val_main_call2_v1_apply, val_main_call2_cst_0_apply, rowmax0_at]
  show max (Ideal.ofBits .f32 0xFF800000#32) _ = _
  rw [ninf_bot]
  exact max_bot_left _

theorem shifted_at (x0 x1 : Arg) (g : Fin 2048) (a c : Fin 64) :
    val_main_call2_v5 (F := Ideal) x0 x1 (ix3 g a c)
      = sim (rows x0 g) (rows x1 g) a c - rowMax (sim (rows x0 g) (rows x1 g) a) := by
  have e4 : idx_main_call2_v4 (ix3 g a c) = ix3 g a (0 : Fin 1) := by
    funext e; match e with | ⟨0, _⟩ => rfl | ⟨1, _⟩ => rfl | ⟨2, _⟩ => rfl
  have e3 : idx_main_call2_v3 (ix3 g a (0 : Fin 1)) = ix2 g a := by
    funext e; match e with | ⟨0, _⟩ => rfl | ⟨1, _⟩ => rfl
  rw [val_main_call2_v5_apply, val_main_call2_v4_apply, val_main_call2_v3_apply, sim_at, e4, e3, rowmax_at]
  rfl

theorem expsum_at (x0 x1 : Arg) (g : Fin 2048) (a : Fin 64) :
    val_main_call2_v7 (F := Ideal) x0 x1 (ix2 g a)
      = ∑ c, Ideal.exp (sim (rows x0 g) (rows x1 g) a c - rowMax (sim (rows x0 g) (rows x1 g) a)) := by
  rw [val_main_call2_v7_apply, val_main_call2_cst_1_apply, Ideal.ofBits_def, Ideal.ofBits_zero_f32, zero_add]
  refine Finset.sum_congr rfl fun k _ => ?_
  have e : idx_main_call2_v7 (ix2 g a) k = ix3 g a k := by
    funext e; match e with | ⟨0, _⟩ => rfl | ⟨1, _⟩ => rfl | ⟨2, _⟩ => rfl
  rw [e, val_main_call2_v6_apply, shifted_at]
  rfl

theorem lsm_at (x0 x1 : Arg) (g : Fin 2048) (a c : Fin 64) :
    val_main_v15 (F := Ideal) x0 x1 (ix3 g a c) = lsm (sim (rows x0 g) (rows x1 g) a) c := by
  have e10 : idx_main_call2_v10 (ix3 g a c) = ix3 g a (0 : Fin 1) := by
    funext e; match e with | ⟨0, _⟩ => rfl | ⟨1, _⟩ => rfl | ⟨2, _⟩ => rfl
  have e8 : idx_main_call2_v8 (ix3 g a (0 : Fin 1)) = ix2 g a := by
    funext e; match e with | ⟨0, _⟩ => rfl | ⟨1, _⟩ => rfl
  rw [val_main_v15_apply, val_main_call2_v10_apply, val_main_call2_v9_apply, val_main_call2_v8_apply, shifted_at,
    e10, e8, expsum_at]
  rfl

/-! ## The diagonal -/

/-- The row numbers, after the select that would add 64 to a negative one (none is). -/
theorem iota6_at (a : Fin 64) : val_main_call3_v6 (F := Ideal) (ix1 a) = BitVec.ofNat 32 a.val := by
  rw [val_main_call3_v6_apply, val_main_call3_v3_apply, val_main_call3_v0_apply, val_main_call3_v2_apply,
    val_main_call3_c_apply]
  show Scalar.select (IntOp.cmpi .slt (BitVec.ofNat 32 a.val) 0#32) _ (BitVec.ofNat 32 a.val) = _
  rw [iota_not_neg, select_zero]

theorem iota11_at (a : Fin 64) : val_main_call3_v11 (F := Ideal) (ix1 a) = BitVec.ofNat 32 a.val := by
  rw [val_main_call3_v11_apply, val_main_call3_v8_apply, val_main_call3_v1_apply, val_main_call3_v7_apply,
    val_main_call3_c_1_apply]
  show Scalar.select (IntOp.cmpi .slt (BitVec.ofNat 32 a.val) 0#32) _ (BitVec.ofNat 32 a.val) = _
  rw [iota_not_neg, select_zero]

theorem starts_col0 (a : Fin 64) : val_main_call3_v14 (F := Ideal) (ix2 a (0 : Fin 2)) = BitVec.ofNat 32 a.val := by
  unfold val_main_call3_v14
  rw [concat_col0, val_main_call3_v12_apply]
  have e : idx_main_call3_v12 (ix2 a (0 : Fin 1)) = ix1 a := by
    funext e; match e with | ⟨0, _⟩ => rfl
  rw [e, iota6_at]

theorem starts_col1 (a : Fin 64) : val_main_call3_v14 (F := Ideal) (ix2 a (1 : Fin 2)) = BitVec.ofNat 32 a.val := by
  unfold val_main_call3_v14
  rw [concat_col1, val_main_call3_v13_apply]
  have e : idx_main_call3_v13 (ix2 a (0 : Fin 1)) = ix1 a := by
    funext e; match e with | ⟨0, _⟩ => rfl
  rw [e, iota11_at]

theorem diag_at (x0 x1 : Arg) (g : Fin 2048) (a : Fin 64) :
    val_main_v16 (F := Ideal) x0 x1 (ix2 g a) = lsm (sim (rows x0 g) (rows x1 g) a) a := by
  unfold val_main_v16
  rw [gather_diag _ _ g a (starts_col0 a) (starts_col1 a), lsm_at]

/-! ## The mean over the diagonal, its negation, and the mean over the graphs -/

theorem diagsum_at (x0 x1 : Arg) (g : Fin 2048) :
    val_main_v17 (F := Ideal) x0 x1 (ix1 g) = ∑ a, lsm (sim (rows x0 g) (rows x1 g) a) a := by
  rw [val_main_v17_apply, val_main_cst_2_apply, Ideal.ofBits_def, Ideal.ofBits_zero_f32, zero_add]
  refine Finset.sum_congr rfl fun k _ => ?_
  have e : idx_main_v17 (ix1 g) k = ix2 g k := by
    funext e; match e with | ⟨0, _⟩ => rfl | ⟨1, _⟩ => rfl
  rw [e, diag_at]

theorem graph_at (x0 x1 : Arg) (g : Fin 2048) :
    val_main_v20 (F := Ideal) x0 x1 (ix1 g) = graphLoss (rows x0 g) (rows x1 g) := by
  rw [val_main_v20_apply, val_main_v19_apply, val_main_v18_apply, val_main_cst_3_apply, diagsum_at]
  rfl

theorem result_eq (x0 x1 : (⟨Cert.ReferenceIdeal.S131072x256, .f32⟩ : BufTy).Contents (Elt Ideal)) :
    Cert.ReferenceIdeal.ReadP.val_main_v22 (F := Ideal) x0 x1
      = fun _ => Cert.Loss.total (Cert.Loss.rows x0) (Cert.Loss.rows x1) := by
  funext i
  rw [val_main_v22_apply, val_main_v21_apply, val_main_cst_4_apply, Ideal.ofBits_def, Ideal.ofBits_zero_f32, zero_add,
    val_main_cst_5_apply]
  have hs : ∑ j : S2048.Idx, val_main_v20 (F := Ideal) x0 x1 j = ∑ g : Fin 2048, graphLoss (rows x0 g) (rows x1 g) :=
    Fintype.sum_equiv idxEquiv1 _ _ fun j =>
      (congrArg (val_main_v20 (F := Ideal) x0 x1) (eq_ix1 j)).trans (graph_at x0 x1 (j 0))
  rw [hs]
  rfl

end Cert.ReferenceIdeal.RefValue

end
-- ==== Proof.KernelAcc.lean ====
/-
  What the kernel's scratch total and its output block hold after each grid point, as the payloads composed.

  The grid has 32 points. At the first the body stores zero into the scratch total, reads it back, and stores the
  total plus the block's sum; at every later point it stores the old total plus the block's sum; at the last it
  also stores the total divided by 2048 into the output block. So the scratch after point `n` is a left fold over
  the points up to `n`, proved by induction on the point, and the output block after the last point is that fold
  divided.
-/
import proofs.«143556_j11244224381067_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc
open Cert.KernelIdeal Cert.KernelIdeal.Gen
variable {F : FTy → Type} [FloatOps F]

theorem hz : (![0, 0] : Fin 2 → Nat) = fun _ => 0 := funext fun a => by fin_cases a <;> rfl

theorem sout_B (c : Dev nD) (i : grid0.Coords) (a1 : Memref sig .tc .vmem S4096x256 .f32) (h1 : a1.IsWhole)
    (a2 : Memref sig .tc .vmem S4096x256 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 x1 : Vec F S4096x256 .f32) (xs0 : Vec F S1x1 .f32) :
    sout0_B_0 c i a1 h1 a2 h2 a3 h3 a4 h4 hc0 hc1 x0 x1 xs0 = k0_pay1 (k0_pay4 x0 x1) k0_pay5 xs0 := by
  unfold sout0_B_0
  rw [View.read_writes_eq_canon _ _ _ (scover0_B_0 c i a1 h1 a2 h2 a3 h3 a4 h4 hc0 hc1 x0 x1 xs0)]
  unfold kernelRun0_B
  dsimp only
  sl_unfold_words
  rw [View.canon_unit_zero hz]
  simp only [View.readAt_eq_ld, h1.read_unread, h2.read_unread, h4.read_unread, View.ld_unit_zero (S := S4096x256) hz,
    View.ld_unit_zero (S := S1x1) hz]

theorem sout_A (c : Dev nD) (i : grid0.Coords) (a1 : Memref sig .tc .vmem S4096x256 .f32) (h1 : a1.IsWhole)
    (a2 : Memref sig .tc .vmem S4096x256 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 x1 : Vec F S4096x256 .f32) :
    sout0_A_0 c i a1 h1 a2 h2 a3 h3 a4 h4 hc0 hc1 x0 x1 = k0_pay1 (k0_pay4 x0 x1) k0_pay5 k0_pay3 := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S4096x256) hz]

theorem sout_C (c : Dev nD) (i : grid0.Coords) (a1 : Memref sig .tc .vmem S4096x256 .f32) (h1 : a1.IsWhole)
    (a2 : Memref sig .tc .vmem S4096x256 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S4096x256 .f32) (xs0 : Vec F S1x1 .f32) :
    sout0_C_0 c i a1 h1 a2 h2 a3 h3 a4 h4 hc0 hc1 x0 x1 xs0 = k0_pay1 (k0_pay4 x0 x1) k0_pay5 xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero hz]
  simp only [View.readAt_eq_ld, h1.read_unread, h2.read_unread, h4.read_unread, View.ld_unit_zero (S := S4096x256) hz,
    View.ld_unit_zero (S := S1x1) hz]

theorem out_C (c : Dev nD) (i : grid0.Coords) (a1 : Memref sig .tc .vmem S4096x256 .f32) (h1 : a1.IsWhole)
    (a2 : Memref sig .tc .vmem S4096x256 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S4096x256 .f32) (xs0 : Vec F S1x1 .f32) :
    out0_C_2 c i a1 h1 a2 h2 a3 h3 a4 h4 hc0 hc1 x0 x1 xs0 = k0_pay2 (k0_pay1 (k0_pay4 x0 x1) k0_pay5 xs0) := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero hz]
  rw [View.readCov_unit_zero (S := S1x1) _ hz]
  simp only [View.readAt_eq_ld, h1.read_unread, h2.read_unread, h4.read_unread, View.ld_unit_zero (S := S4096x256) hz,
    View.ld_unit_zero (S := S1x1) hz]

/-! ## The running total -/

variable (m : (ℓ : Loc nD τ sig) → Buf (Elt F) ℓ)

/-- The scratch total after point `n`: zero plus the first block's sum, then plus each later block's. -/
def acc (c : Dev nD) : (n : ℕ) → n < cfg0.N → Vec F S1x1 .f32
  | 0, h => k0_pay1 (k0_pay4 (iblk m c 0 ⟨0, h⟩) (iblk m c 1 ⟨0, h⟩)) k0_pay5 k0_pay3
  | n + 1, h => k0_pay1 (k0_pay4 (iblk m c 0 ⟨n + 1, h⟩) (iblk m c 1 ⟨n + 1, h⟩)) k0_pay5 (acc c n (Nat.lt_of_succ_lt h))

/-- The scratch component of what the generated frame records after point `n` is the running total. -/
theorem outsAt_snd (c : Dev nD) : ∀ (n : ℕ) (h : n < cfg0.N), (outsAt0 m c n h).2 = acc m c n h
  | 0, h => by
    rw [outsAt0_A m c ⟨0, h⟩ rfl (by dsimp only; omega)]
    dsimp only
    exact sout_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      scM0_0 (Memref.isWhole_whole _) _ _ (iblk m c 0 ⟨0, h⟩) (iblk m c 1 ⟨0, h⟩)
  | n + 1, h => by
    have hN : cfg0.N = 32 := N_0
    have h0 : ¬(⟨n + 1, h⟩ : Fin cfg0.N).val % 32 = 0 := by dsimp only; omega
    by_cases h1 : (⟨n + 1, h⟩ : Fin cfg0.N).val % 32 = 31
    · rw [outsAt0_C m c ⟨n + 1, h⟩ h0 h1]
      dsimp only
      rw [sout_C c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) _ _ (iblk m c 0 ⟨n + 1, h⟩) (iblk m c 1 ⟨n + 1, h⟩) _]
      show k0_pay1 _ k0_pay5 (outsAt0 m c n _).2 = k0_pay1 _ k0_pay5 (acc m c n _)
      rw [outsAt_snd c n]
    · rw [outsAt0_B m c ⟨n + 1, h⟩ h0 h1]
      dsimp only
      rw [sout_B c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) _ _ (iblk m c 0 ⟨n + 1, h⟩) (iblk m c 1 ⟨n + 1, h⟩) _]
      show k0_pay1 _ k0_pay5 (outsAt0 m c n _).2 = k0_pay1 _ k0_pay5 (acc m c n _)
      rw [outsAt_snd c n]

/-- The output block after the last point is the running total divided. -/
theorem outsAt_fst_last (c : Dev nD) (t : Fin cfg0.N) (h31 : t.val = 31) :
    (outsAt0 m c t.val t.isLt).1 = k0_pay2 (acc m c t.val t.isLt) := by
  have h0 : ¬t.val % 32 = 0 := by omega
  have h1 : t.val % 32 = 31 := by omega
  rw [outsAt0_C m c t h0 h1]
  dsimp only
  rw [out_C c (grid0.coords t) (ms0_0 t) (hs0_0 t) (ms0_1 t) (hs0_1 t) (ms0_2 t) (hs0_2 t) scM0_0 (Memref.isWhole_whole _) _ _
    (iblk m c 0 t) (iblk m c 1 t) _]
  obtain ⟨n, hn⟩ := t
  obtain rfl : n = 30 + 1 := h31
  show k0_pay2 (k0_pay1 _ k0_pay5 (outsAt0 m c 30 _).2) = k0_pay2 (k0_pay1 _ k0_pay5 (acc m c 30 _))
  rw [outsAt_snd m c 30]

end Cert.KernelIdeal.Acc

end
-- ==== Proof.LibRank3Layout.lean ====
/-
  Rank-3 layout operations and lane reductions read at an index, over literal-size index constructors.

  A flat array of `a * b` rows viewed as `a` groups of `b` rows; the keep-dimension cast that appends a unit axis; the
  broadcast of that unit axis along the lanes; the broadcast of a leading unit axis over the groups; and, at the
  exact extended reals, the lane sum and the lane maximum of a rank-3 array and the row sum of a rank-2 array, each
  as a sum or a fold over `Fin` of the operand at the index with the reduced coordinate inserted.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibRank3

open Idealize.ShloMosaic Idealize.ShloMosaic.ValueIdx

variable {α : Type}

/-- `[n, d]` viewed `[a, b, d]` (so `n = a * b`): entry `(p, q, r)` is row `p * b + q`, column `r`. -/
theorem shapeCast_rows_apply {n a b d : ℕ} (x : (⟨2, ![n, d]⟩ : Shape).Idx → α)
    (h : (⟨2, ![n, d]⟩ : Shape).ShapeCasts ⟨3, ![a, b, d]⟩) (p : Fin a) (q : Fin b) (r : Fin d)
    (hpq : p.val * b + q.val < n) :
    shapeCast ⟨3, ![a, b, d]⟩ x h (ix3 p q r) = x (ix2 ⟨p.val * b + q.val, hpq⟩ r) := by
  refine shapeCast_apply x h _ _ ?_
  rw [Shape.rowMajor_val_two, Shape.rowMajor_val_three]
  rfl

/-- `[a, b]` viewed `[a, b, 1]`: entry `(p, q, 0)` is entry `(p, q)`. -/
theorem shapeCast_keepdim_apply {a b : ℕ} (x : (⟨2, ![a, b]⟩ : Shape).Idx → α)
    (h : (⟨2, ![a, b]⟩ : Shape).ShapeCasts ⟨3, ![a, b, 1]⟩) (p : Fin a) (q : Fin b) (z : Fin 1) :
    shapeCast ⟨3, ![a, b, 1]⟩ x h (ix3 p q z) = x (ix2 p q) := by
  refine shapeCast_apply x h _ _ ?_
  rw [Shape.rowMajor_val_two, Shape.rowMajor_val_three]
  show p.val * b + q.val = (p.val * b + q.val) * 1 + z.val
  have := z.isLt
  omega

/-- `[a, b, 1]` broadcast along the lanes to `[a, b, c]`: entry `(p, q, r)` is entry `(p, q, 0)`. -/
theorem broadcastTo_lane_apply {a b c : ℕ} (x : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ x h (ix3 p q r) = x (ix3 p q ⟨0, Nat.one_pos⟩) := by
  refine broadcastTo_apply x h _ _ fun d => ?_
  match d with
  | ⟨0, _⟩ =>
    show p.val = if a = 1 then 0 else p.val
    split_ifs with h1
    · have := p.isLt; omega
    · rfl
  | ⟨1, _⟩ =>
    show q.val = if b = 1 then 0 else q.val
    split_ifs with h1
    · have := q.isLt; omega
    · rfl
  | ⟨2, _⟩ =>
    show (0 : ℕ) = if (1 : ℕ) = 1 then 0 else r.val
    rw [if_pos rfl]

/-- `[1, b, c]` broadcast over the groups to `[a, b, c]`: entry `(p, q, r)` is entry `(0, q, r)`. -/
theorem broadcastTo_group_apply {a b c : ℕ} (x : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ x h (ix3 p q r) = x (ix3 ⟨0, Nat.one_pos⟩ q r) := by
  refine broadcastTo_apply x h _ _ fun d => ?_
  match d with
  | ⟨0, _⟩ =>
    show (0 : ℕ) = if (1 : ℕ) = 1 then 0 else p.val
    rw [if_pos rfl]
  | ⟨1, _⟩ =>
    show q.val = if b = 1 then 0 else q.val
    split_ifs with h1
    · have := q.isLt; omega
    · rfl
  | ⟨2, _⟩ =>
    show r.val = if c = 1 then 0 else r.val
    split_ifs with h1
    · have := r.isLt; omega
    · rfl

/-- The lane sum of a rank-3 array at the exact extended reals: at `(p, q)` the sum over `k` of entry `(p, q, k)`. -/
theorem sum_lane_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.add.neutral .f32 hφ) (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  refine Finset.sum_congr rfl fun k _ => congrArg src (funext fun d => Fin.ext ?_)
  match d with
  | ⟨0, _⟩ => rfl
  | ⟨1, _⟩ => rfl
  | ⟨2, _⟩ => rfl

/-- The lane maximum of a rank-3 array at the exact extended reals: at `(p, q)` the fold of `max`, from the value of the
    starting pattern, over `k` of entry `(p, q, k)`. -/
theorem max_lane_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.maximumf.neutral .f32 hφ) (p : Fin a) (q : Fin b) :
    multiReduction .maximumf [2] ⟨2, ![a, b]⟩ src acc h hφ hacc (ix2 p q)
      = (Finset.univ : Finset (Fin c)).fold max (Ideal.ofBits .f32 acc) (fun k => src (ix3 p q k)) := by
  refine (Ideal.multiReduction_maximumf_single src acc h hφ hacc (ix2 p q)).trans ?_
  refine congrArg (Finset.fold max (Ideal.ofBits .f32 acc) · Finset.univ) (funext fun k => congrArg src (funext fun d => Fin.ext ?_))
  match d with
  | ⟨0, _⟩ => rfl
  | ⟨1, _⟩ => rfl
  | ⟨2, _⟩ => rfl

/-- The row sum of a rank-2 array at the exact extended reals: at `p` the sum over `k` of entry `(p, k)`. -/
theorem sum_row_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun d => Fin.ext ?_)
  match d with
  | ⟨0, _⟩ => rfl
  | ⟨1, _⟩ => rfl

end Cert.LibRank3

end
-- ==== Proof.KernelPayload.lean ====
/-
  The kernel body's arithmetic read at an index, at the exact extended reals.

  A grid point loads a block of 4096 reactant rows and a block of 4096 product rows: 64 graphs of 64 rows each. The
  body views each block as [64, 64, 256], divides every row by its clamped norm, multiplies the two per graph
  (contracting the 256 features), divides by the temperature, and takes the log-softmax of every row in the grouping
  `s c - (m + L)`. It multiplies by the 64 × 64 identity mask, sums over both row axes, divides by 64, negates by
  subtracting from zero, sums over the 64 graphs of the block and adds the result to the running total.
  Each of these stages is stated once as a small function and read at an index; the printed payloads are those
  functions composed.
-/
import proofs.«143556_j11244224381067_1_alg».proof.Proof.Gen.KernelIdeal.Skeleton
import proofs.«143556_j11244224381067_1_alg».proof.Proof.Spec
import proofs.«143556_j11244224381067_1_alg».proof.Proof.LibRank3Layout
import Idealize.ShloMosaic.Lib.ValueLayout

noncomputable section

namespace Cert.KernelIdeal.Payload

open Cert.KernelIdeal Cert.KernelIdeal.Gen Idealize.ShloMosaic Idealize.ShloMosaic.ValueIdx Cert.Loss Cert.LibRank3

/-! ## The stages -/

/-- A block of 4096 rows viewed as 64 graphs of 64 rows. -/
def cast3 (v : Vec Ideal S4096x256 .f32) : FVec Ideal S64x64x256 .f32 :=
  shapeCast S64x64x256 v shapeCasts_S4096x256_S64x64x256

/-- Every row's clamped norm, with a trailing unit axis. -/
def clampNorm (v4 : FVec Ideal S64x64x256 .f32) : FVec Ideal S64x64x1 .f32 :=
  maximumf
    (sqrt (shapeCast S64x64x1 (multiReduction .add [2] S64x64 (mulf v4 v4) 0x00000000#32 reduces_S64x64x256_S64x64 (.inl rfl) rfl)
      shapeCasts_S64x64_S64x64x1))
    (broadcast S64x64x1 (Scalar.ofBits .f32 0x2B8CBCCC#32))

/-- Every row divided by its clamped norm. -/
def unitV (v4 : FVec Ideal S64x64x256 .f32) : FVec Ideal S64x64x256 .f32 :=
  divf v4 (broadcastTo S64x64x256 (clampNorm v4) broadcasts_S64x64x1_S64x64x256)

/-- Per graph, the inner products of the normalized reactant rows with the normalized product rows, over the temperature. -/
def simV (l r : FVec Ideal S64x64x256 .f32) : FVec Ideal S64x64x64 .f32 :=
  divf (matmul dot_S64x64x256_S64x64x256_S64x64x64_2_2_1_1_0_0 none l r (constant S64x64x64 .f32 0x00000000#32))
    (broadcast S64x64x64 (Scalar.ofBits .f32 0x3DCCCCCD#32))

/-- Every row's maximum, with a trailing unit axis. -/
def rowMaxV (s : FVec Ideal S64x64x64 .f32) : FVec Ideal S64x64x1 .f32 :=
  shapeCast S64x64x1 (multiReduction .maximumf [2] S64x64 s 0xFF800000#32 reduces_S64x64x64_S64x64 (.inl rfl) rfl)
    shapeCasts_S64x64_S64x64x1

/-- Every row's log-softmax, subtracting maximum plus log-sum at once. -/
def lsmV (s : FVec Ideal S64x64x64 .f32) : FVec Ideal S64x64x64 .f32 :=
  subf s (broadcastTo S64x64x64
    (addf (rowMaxV s)
      (log (shapeCast S64x64x1
        (multiReduction .add [2] S64x64 (exp (subf s (broadcastTo S64x64x64 (rowMaxV s) broadcasts_S64x64x1_S64x64x64)))
          0x00000000#32 reduces_S64x64x64_S64x64 (.inl rfl) rfl)
        shapeCasts_S64x64_S64x64x1)))
    broadcasts_S64x64x1_S64x64x64)

/-- The log-probabilities payload is these stages composed. -/
theorem pay4_eq (v3 v5 : Vec Ideal S4096x256 .f32) :
    k0_pay4 (F := Ideal) v3 v5 = lsmV (simV (unitV (cast3 v3)) (unitV (cast3 v5))) := rfl

/-! ## The stages at an index -/

/-- Rows `64 b … 64 b + 63` of a block: graph `b`'s rows. -/
def blockRows (v : Vec Ideal S4096x256 .f32) (b a : Fin 64) (d : Fin 256) : EReal :=
  v (ix2 ⟨b.val * 64 + a.val, by have := b.isLt; have := a.isLt; omega⟩ d)

theorem cast3_apply (v : Vec Ideal S4096x256 .f32) (b a : Fin 64) (d : Fin 256) :
    cast3 v (ix3 b a d) = blockRows v b a d :=
  shapeCast_rows_apply v shapeCasts_S4096x256_S64x64x256 b a d _

theorem clampNorm_apply (v4 : FVec Ideal S64x64x256 .f32) (b a : Fin 64) (z : Fin 1) :
    clampNorm v4 (ix3 b a z) = cnorm (fun d => v4 (ix3 b a d)) := by
  show max (Ideal.sqrt (shapeCast S64x64x1 _ shapeCasts_S64x64_S64x64x1 (ix3 b a z))) (Ideal.ofBits .f32 0x2B8CBCCC#32) = _
  refine congrArg (fun t => max (Ideal.sqrt t) (Ideal.ofBits .f32 0x2B8CBCCC#32)) ?_
  refine (shapeCast_keepdim_apply _ shapeCasts_S64x64_S64x64x1 b a z).trans ?_
  exact sum_lane_apply (mulf v4 v4) 0x00000000#32 reduces_S64x64x256_S64x64 (.inl rfl) rfl b a

theorem unitV_apply (v4 : FVec Ideal S64x64x256 .f32) (b a : Fin 64) (d : Fin 256) :
    unitV v4 (ix3 b a d) = unitRow (fun d => v4 (ix3 b a d)) d := by
  show Ideal.div (v4 (ix3 b a d)) (broadcastTo S64x64x256 (clampNorm v4) broadcasts_S64x64x1_S64x64x256 (ix3 b a d)) = _
  refine congrArg (Ideal.div (v4 (ix3 b a d))) ?_
  exact (broadcastTo_lane_apply _ broadcasts_S64x64x1_S64x64x256 b a d).trans (clampNorm_apply v4 b a _)

/-! The operand indices of the batched contraction, coordinate by coordinate: the batch axis follows the output's
    first coordinate, the row axis its second (left operand) or third (right operand), the feature axis the
    contraction index. -/

theorem lhs_dot_0 (i : S64x64x64.Idx) (q : dot_S64x64x256_S64x64x256_S64x64x64_2_2_1_1_0_0.contr.Idx) :
    (dot_S64x64x256_S64x64x256_S64x64x64_2_2_1_1_0_0.lhsIdx i q 0).val = (i 0).val := by
  unfold DotDims.lhsIdx
  rw [dif_pos (show (0 : Fin S64x64x256.rank) ∈ dot_S64x64x256_S64x64x256_S64x64x64_2_2_1_1_0_0.lhsBatch by decide)]
  rfl
theorem lhs_dot_1 (i : S64x64x64.Idx) (q : dot_S64x64x256_S64x64x256_S64x64x64_2_2_1_1_0_0.contr.Idx) :
    (dot_S64x64x256_S64x64x256_S64x64x64_2_2_1_1_0_0.lhsIdx i q 1).val = (i 1).val := by
  unfold DotDims.lhsIdx
  rw [dif_neg (show ¬(1 : Fin S64x64x256.rank) ∈ dot_S64x64x256_S64x64x256_S64x64x64_2_2_1_1_0_0.lhsBatch by decide),
    dif_pos (show (1 : Fin S64x64x256.rank) ∈ dot_S64x64x256_S64x64x256_S64x64x64_2_2_1_1_0_0.lhsNonContracting by decide)]
  rfl
theorem lhs_dot_2 (i : S64x64x64.Idx) (q : dot_S64x64x256_S64x64x256_S64x64x64_2_2_1_1_0_0.contr.Idx) :
    (dot_S64x64x256_S64x64x256_S64x64x64_2_2_1_1_0_0.lhsIdx i q 2).val = (q ⟨0, by decide⟩).val :=
  dot_S64x64x256_S64x64x256_S64x64x64_2_2_1_1_0_0.lhsIdx_val_of_single rfl i q
theorem rhs_dot_0 (i : S64x64x64.Idx) (q : dot_S64x64x256_S64x64x256_S64x64x64_2_2_1_1_0_0.contr.Idx) :
    (dot_S64x64x256_S64x64x256_S64x64x64_2_2_1_1_0_0.rhsIdx i q 0).val = (i 0).val := by
  unfold DotDims.rhsIdx
  rw [dif_pos (show (0 : Fin S64x64x256.rank) ∈ dot_S64x64x256_S64x64x256_S64x64x64_2_2_1_1_0_0.rhsBatch by decide)]
  rfl
theorem rhs_dot_1 (i : S64x64x64.Idx) (q : dot_S64x64x256_S64x64x256_S64x64x64_2_2_1_1_0_0.contr.Idx) :
    (dot_S64x64x256_S64x64x256_S64x64x64_2_2_1_1_0_0.rhsIdx i q 1).val = (i 2).val := by
  unfold DotDims.rhsIdx
  rw [dif_neg (show ¬(1 : Fin S64x64x256.rank) ∈ dot_S64x64x256_S64x64x256_S64x64x64_2_2_1_1_0_0.rhsBatch by decide),
    dif_pos (show (1 : Fin S64x64x256.rank) ∈ dot_S64x64x256_S64x64x256_S64x64x64_2_2_1_1_0_0.rhsNonContracting by decide)]
  rfl
theorem rhs_dot_2 (i : S64x64x64.Idx) (q : dot_S64x64x256_S64x64x256_S64x64x64_2_2_1_1_0_0.contr.Idx) :
    (dot_S64x64x256_S64x64x256_S64x64x64_2_2_1_1_0_0.rhsIdx i q 2).val = (q ⟨0, by decide⟩).val :=
  dot_S64x64x256_S64x64x256_S64x64x64_2_2_1_1_0_0.rhsIdx_val_of_single rfl i q

/-- The batched contraction at `(b, a, c)`: the sum over the 256 features of row `(b, a)` of the left operand times
    row `(b, c)` of the right one. -/
theorem matmul_apply3 (l r : FVec Ideal S64x64x256 .f32) (b a c : Fin 64) :
    matmul dot_S64x64x256_S64x64x256_S64x64x64_2_2_1_1_0_0 none l r (constant S64x64x64 .f32 0x00000000#32) (ix3 b a c)
      = ∑ d : Fin 256, l (ix3 b a d) * r (ix3 b c d) := by
  refine (Ideal.matmul_constant_zero_apply dot_S64x64x256_S64x64x256_S64x64x64_2_2_1_1_0_0 none l r (ix3 b a c)).trans ?_
  rw [← Equiv.sum_comp (ValueIdx.contrEquiv1 dot_S64x64x256_S64x64x256_S64x64x64_2_2_1_1_0_0 256 rfl rfl).symm]
  refine Finset.sum_congr rfl fun k _ => ?_
  have hk := ValueIdx.contrEquiv1_symm_val dot_S64x64x256_S64x64x256_S64x64x64_2_2_1_1_0_0 256 rfl rfl k
  have el : dot_S64x64x256_S64x64x256_S64x64x64_2_2_1_1_0_0.lhsIdx (ix3 b a c)
      ((ValueIdx.contrEquiv1 dot_S64x64x256_S64x64x256_S64x64x64_2_2_1_1_0_0 256 rfl rfl).symm k) = ix3 b a k :=
    funext fun x => Fin.ext (by
      match x with
      | ⟨0, _⟩ => exact lhs_dot_0 _ _
      | ⟨1, _⟩ => exact lhs_dot_1 _ _
      | ⟨2, _⟩ => exact (lhs_dot_2 _ _).trans hk)
  have er : dot_S64x64x256_S64x64x256_S64x64x64_2_2_1_1_0_0.rhsIdx (ix3 b a c)
      ((ValueIdx.contrEquiv1 dot_S64x64x256_S64x64x256_S64x64x64_2_2_1_1_0_0 256 rfl rfl).symm k) = ix3 b c k :=
    funext fun x => Fin.ext (by
      match x with
      | ⟨0, _⟩ => exact rhs_dot_0 _ _
      | ⟨1, _⟩ => exact rhs_dot_1 _ _
      | ⟨2, _⟩ => exact (rhs_dot_2 _ _).trans hk)
  rw [el, er]

theorem simV_apply (l r : FVec Ideal S64x64x256 .f32) (b a c : Fin 64) :
    simV l r (ix3 b a c) = Ideal.div (∑ d : Fin 256, l (ix3 b a d) * r (ix3 b c d)) (Ideal.ofBits .f32 0x3DCCCCCD#32) := by
  show Ideal.div (matmul dot_S64x64x256_S64x64x256_S64x64x64_2_2_1_1_0_0 none l r (constant S64x64x64 .f32 0x00000000#32) (ix3 b a c))
    (Ideal.ofBits .f32 0x3DCCCCCD#32) = _
  exact congrArg (Ideal.div · (Ideal.ofBits .f32 0x3DCCCCCD#32)) (matmul_apply3 l r b a c)

theorem rowMaxV_apply (s : FVec Ideal S64x64x64 .f32) (b a : Fin 64) (z : Fin 1) :
    rowMaxV s (ix3 b a z) = rowMax (fun c => s (ix3 b a c)) :=
  (shapeCast_keepdim_apply _ shapeCasts_S64x64_S64x64x1 b a z).trans
    (max_lane_apply s 0xFF800000#32 reduces_S64x64x64_S64x64 (.inl rfl) rfl b a)

theorem lsmV_apply (s : FVec Ideal S64x64x64 .f32) (b a c : Fin 64) :
    lsmV s (ix3 b a c) = lsmJoint (fun c => s (ix3 b a c)) c := by
  show s (ix3 b a c) - broadcastTo S64x64x64 _ broadcasts_S64x64x1_S64x64x64 (ix3 b a c) = _
  refine congrArg (s (ix3 b a c) - ·) ?_
  refine (broadcastTo_lane_apply _ broadcasts_S64x64x1_S64x64x64 b a c).trans ?_
  show rowMaxV s (ix3 b a ⟨0, Nat.one_pos⟩) + Ideal.log (shapeCast S64x64x1 _ shapeCasts_S64x64_S64x64x1 (ix3 b a ⟨0, Nat.one_pos⟩)) = _
  rw [rowMaxV_apply]
  refine congrArg (fun t => rowMax (fun c => s (ix3 b a c)) + Ideal.log t) ?_
  refine (shapeCast_keepdim_apply _ shapeCasts_S64x64_S64x64x1 b a _).trans ?_
  refine (sum_lane_apply _ 0x00000000#32 reduces_S64x64x64_S64x64 (.inl rfl) rfl b a).trans ?_
  refine Finset.sum_congr rfl fun k _ => ?_
  show Ideal.exp (s (ix3 b a k) - broadcastTo S64x64x64 (rowMaxV s) broadcasts_S64x64x1_S64x64x64 (ix3 b a k)) = _
  rw [broadcastTo_lane_apply, rowMaxV_apply]

/-- The log-probabilities at graph `b`, row `a`, column `c` of the block. -/
theorem pay4_apply (v3 v5 : Vec Ideal S4096x256 .f32) (b a c : Fin 64) :
    k0_pay4 (F := Ideal) v3 v5 (ix3 b a c) = lsmJoint (sim (blockRows v3 b) (blockRows v5 b) a) c := by
  rw [pay4_eq, lsmV_apply]
  refine congrArg (fun s => lsmJoint s c) (funext fun c' => ?_)
  rw [simV_apply]
  unfold sim
  refine congrArg (Ideal.div · (Ideal.ofBits .f32 0x3DCCCCCD#32)) (Finset.sum_congr rfl fun d _ => ?_)
  rw [unitV_apply, unitV_apply]
  have e3 : (fun d => cast3 v3 (ix3 b a d)) = blockRows v3 b a := funext fun d => cast3_apply v3 b a d
  have e5 : (fun d => cast3 v5 (ix3 b c' d)) = blockRows v5 b c' := funext fun d => cast3_apply v5 b c' d
  rw [e3, e5]

end Cert.KernelIdeal.Payload

end
-- ==== Proof.KernelTail.lean ====
/-
  The rest of the kernel body at the exact extended reals: the identity mask, the sum over a block, and what one
  grid point adds to the running total.

  The mask is the comparison of the row number with the column number, widened and converted: one on the diagonal,
  zero off it. Multiplying a row of log-probabilities by it and summing picks the diagonal entry (a product with
  zero is zero on all of the extended reals, so nothing about finiteness is used here). The body then sums the 64
  diagonal entries of a graph, divides by 64, subtracts from zero, and sums over the 64 graphs: the block's
  contribution is the sum of its 64 graph losses, in the grouping `s c - (m + L)` of the log-softmax.
-/
import proofs.«143556_j11244224381067_1_alg».proof.Proof.KernelPayload

noncomputable section

namespace Cert.KernelIdeal.Payload

open Cert.KernelIdeal Cert.KernelIdeal.Gen Idealize.ShloMosaic Idealize.ShloMosaic.ValueIdx Cert.Loss Cert.LibRank3

/-! ## The identity mask -/

theorem eqWord_diag : ∀ a : Fin 64, (IntOp.cmpi .eq (BitVec.ofNat 32 a.val) (BitVec.ofNat 32 a.val)).setWidth 32 = 1#32 := by
  decide +kernel

theorem eqWord_off : ∀ a c : Fin 64, c ≠ a → (IntOp.cmpi .eq (BitVec.ofNat 32 a.val) (BitVec.ofNat 32 c.val)).setWidth 32 = 0#32 := by
  decide +kernel

/-- The mask at graph `b`, row `a`, column `c`: the word `a = c` converted. -/
theorem pay5_apply (b a c : Fin 64) :
    k0_pay5 (F := Ideal) (ix3 b a c)
      = FloatOps.sitofp (F := Ideal) .f32 ((IntOp.cmpi .eq (BitVec.ofNat 32 a.val) (BitVec.ofNat 32 c.val)).setWidth 32) := by
  unfold k0_pay5
  refine (broadcastTo_group_apply _ broadcasts_S1x64x64_S64x64x64 b a c).trans ?_
  refine (shapeCast_ab_1ab_apply _ shapeCasts_S64x64_S1x64x64 _ a c).trans ?_
  show FloatOps.sitofp (F := Ideal) .f32 ((IntOp.cmpi .eq (iota .tc S64x64 32 [0] iota_S64x64_d0_w32 (ix2 a c))
      (iota .tc S64x64 32 [1] iota_S64x64_d1_w32 (ix2 a c))).setWidth 32) = _
  rw [iota_single_apply, iota_single_apply]

theorem mask_diag (b a : Fin 64) : k0_pay5 (F := Ideal) (ix3 b a a) = 1 := by
  rw [pay5_apply, eqWord_diag]
  show (((1#32 : BitVec 32).toInt : ℝ) : EReal) = 1
  norm_num

theorem mask_off (b a c : Fin 64) (h : c ≠ a) : k0_pay5 (F := Ideal) (ix3 b a c) = 0 := by
  rw [pay5_apply, eqWord_off a c h]
  show (((0#32 : BitVec 32).toInt : ℝ) : EReal) = 0
  norm_num

/-! ## The sum over a block -/

/-- Per graph: zero minus the mean of the masked log-probabilities. -/
def perGraphV (v36 v43 : FVec Ideal S64x64x64 .f32) : FVec Ideal S64 .f32 :=
  subf (broadcast S64 (Scalar.ofBits .f32 0x00000000#32))
    (divf
      (multiReduction .add [1] S64
        (multiReduction .add [2] S64x64 (mulf v36 v43) 0x00000000#32 reduces_S64x64x64_S64x64 (.inl rfl) rfl)
        0x00000000#32 reduces_S64x64_S64 (.inl rfl) rfl)
      (broadcast S64 (Scalar.ofBits .f32 0x42800000#32)))

/-- The sum of a vector of 64 entries, as a [1, 1] array. -/
def blockSumV (w : FVec Ideal S64 .f32) : FVec Ideal S1x1 .f32 :=
  shapeCast S1x1 (multiReduction .add [1] S1 (shapeCast S1x64 w shapeCasts_S64_S1x64) 0x00000000#32 reduces_S1x64_S1 (.inl rfl) rfl)
    shapeCasts_S1_S1x1

theorem pay1_eq (v36 v43 : FVec Ideal S64x64x64 .f32) (v55 : Vec Ideal S1x1 .f32) :
    k0_pay1 (F := Ideal) v36 v43 v55
      = shapeCast S1x1 (addf v55 (broadcast S1x1 (extractAt ![0, 0] (blockSumV (perGraphV v36 v43)) inpos_S1x1_p0_0)))
          shapeCasts_S1x1_S1x1 := rfl

theorem perGraphV_apply (v36 v43 : FVec Ideal S64x64x64 .f32) (b : Fin 64) :
    perGraphV v36 v43 (ix1 b)
      = Ideal.ofBits .f32 0x00000000#32
        - Ideal.div (∑ a : Fin 64, ∑ c : Fin 64, v36 (ix3 b a c) * v43 (ix3 b a c)) (Ideal.ofBits .f32 0x42800000#32) := by
  show Ideal.ofBits .f32 0x00000000#32
      - Ideal.div (multiReduction (F := Ideal) .add [1] S64 _ 0x00000000#32 reduces_S64x64_S64 (.inl rfl) rfl (ix1 b)) (Ideal.ofBits .f32 0x42800000#32) = _
  refine congrArg (fun t => Ideal.ofBits .f32 0x00000000#32 - Ideal.div t (Ideal.ofBits .f32 0x42800000#32)) ?_
  refine (sum_row_apply _ 0x00000000#32 reduces_S64x64_S64 (.inl rfl) rfl b).trans (Finset.sum_congr rfl fun a _ => ?_)
  exact sum_lane_apply (mulf v36 v43) 0x00000000#32 reduces_S64x64x64_S64x64 (.inl rfl) rfl b a

theorem blockSumV_apply (w : FVec Ideal S64 .f32) (u v : Fin 1) : blockSumV w (ix2 u v) = ∑ b : Fin 64, w (ix1 b) := by
  refine (shapeCast_a_1a_apply _ shapeCasts_S1_S1x1 u v).trans ?_
  refine (sum_row_apply _ 0x00000000#32 reduces_S1x64_S1 (.inl rfl) rfl v).trans (Finset.sum_congr rfl fun b _ => ?_)
  exact shapeCast_a_1a_apply w shapeCasts_S64_S1x64 v b

/-- The accumulate payload at its one index: the old total plus the sum over the 64 graphs. -/
theorem pay1_apply (v36 v43 : FVec Ideal S64x64x64 .f32) (v55 : Vec Ideal S1x1 .f32) (u v : Fin 1) :
    k0_pay1 (F := Ideal) v36 v43 v55 (ix2 u v)
      = v55 (ix2 u v) + ∑ b : Fin 64, (Ideal.ofBits .f32 0x00000000#32
          - Ideal.div (∑ a : Fin 64, ∑ c : Fin 64, v36 (ix3 b a c) * v43 (ix3 b a c)) (Ideal.ofBits .f32 0x42800000#32)) := by
  rw [pay1_eq, shapeCast_self]
  show v55 (ix2 u v) + blockSumV (perGraphV v36 v43) (fun a => ⟨(![0, 0] : Fin 2 → Nat) a, inpos_S1x1_p0_0 a⟩) = _
  have hidx : (fun a => ⟨(![0, 0] : Fin 2 → Nat) a, inpos_S1x1_p0_0 a⟩ : S1x1.Idx) = ix2 (0 : Fin 1) (0 : Fin 1) :=
    funext fun a => by match a with | ⟨0, _⟩ => rfl | ⟨1, _⟩ => rfl
  rw [hidx, blockSumV_apply]
  exact congrArg (v55 (ix2 u v) + ·) (Finset.sum_congr rfl fun b _ => perGraphV_apply v36 v43 b)

/-! ## What one grid point adds -/

/-- The sum of the 64 graph losses of a block, in the grouping `s c - (m + L)`. -/
def blockLoss (x0 x1 : Vec Ideal S4096x256 .f32) : EReal :=
  ∑ b : Fin 64, graphLossJoint (blockRows x0 b) (blockRows x1 b)

theorem pay1_block (x0 x1 : Vec Ideal S4096x256 .f32) (acc : Vec Ideal S1x1 .f32) (u v : Fin 1) :
    k0_pay1 (F := Ideal) (k0_pay4 x0 x1) k0_pay5 acc (ix2 u v) = acc (ix2 u v) + blockLoss x0 x1 := by
  rw [pay1_apply]
  refine congrArg (acc (ix2 u v) + ·) (Finset.sum_congr rfl fun b _ => ?_)
  rw [Ideal.ofBits_zero_f32, zero_sub]
  unfold graphLossJoint
  refine congrArg (fun z => -(Ideal.div z (Ideal.ofBits .f32 0x42800000#32))) (Finset.sum_congr rfl fun a _ => ?_)
  rw [Finset.sum_congr rfl (fun c _ => by rw [pay4_apply x0 x1 b a c])]
  exact diag_sum (lsmJoint (sim (blockRows x0 b) (blockRows x1 b) a)) (fun c => k0_pay5 (F := Ideal) (ix3 b a c)) a
    (mask_diag b a) (fun c hc => mask_off b a c hc)

/-- The zero the total starts from, and the final division, at the one index. -/
theorem pay3_apply (u v : Fin 1) : k0_pay3 (F := Ideal) (ix2 u v) = 0 := by
  unfold k0_pay3
  rw [shapeCast_self]
  exact Ideal.ofBits_zero_f32

theorem pay2_apply (v64 : Vec Ideal S1x1 .f32) (u v : Fin 1) :
    k0_pay2 (F := Ideal) v64 (ix2 u v) = Ideal.div (v64 (ix2 u v)) (Ideal.ofBits .f32 0x45000000#32) := rfl

end Cert.KernelIdeal.Payload

end
-- ==== Proof.SpecTotal.lean ====
/-
  The total as the kernel accumulates it — block by block, 32 blocks of 64 graphs, each graph's log-softmax in the
  grouping `s c - (m + L)` — is the mean over the 2048 graphs of the specification when every input entry is real:
  the two groupings of the log-softmax agree on rows of reals, and summing block by block is summing over all graphs.
-/
import proofs.«143556_j11244224381067_1_alg».proof.Proof.Spec

noncomputable section

namespace Cert.Loss

open Idealize.ShloMosaic

/-- The mean of the graph losses summed block by block, in the grouping `s c - (m + L)`. -/
def totalJoint (X0 X1 : (⟨2, ![131072, 256]⟩ : Shape).Idx → EReal) : EReal :=
  Ideal.div (∑ t : Fin 32, ∑ b : Fin 64, graphLossJoint (rows X0 (gidx t b)) (rows X1 (gidx t b)))
    (Ideal.ofBits .f32 0x45000000#32)

theorem totalJoint_eq (X0 X1 : (⟨2, ![131072, 256]⟩ : Shape).Idx → EReal)
    (h0 : ∀ i, ∃ r : ℝ, X0 i = (r : EReal)) (h1 : ∀ i, ∃ r : ℝ, X1 i = (r : EReal)) :
    totalJoint X0 X1 = total (rows X0) (rows X1) := by
  unfold totalJoint total
  refine congrArg (Ideal.div · (Ideal.ofBits .f32 0x45000000#32)) ?_
  rw [← sum_blocks (fun g => graphLoss (rows X0 g) (rows X1 g))]
  refine Finset.sum_congr rfl fun t _ => Finset.sum_congr rfl fun b _ => ?_
  exact graphLossJoint_eq _ _ (fun a d => h0 _) (fun a d => h1 _)

end Cert.Loss

end
-- ==== Proof.KernelValue.lean ====
/-
  The kernel's result at the exact extended reals.

  Block `t` of either input is rows `4096 t … 4096 t + 4095` of its array, so graph `b` of block `t` is graph
  `64 t + b` of the array. The scratch total after point `n` is the sum of the block losses of points `0 … n` (the
  first point adds to a stored zero); after the last point the body divides it by 2048 into the one output block,
  which the pipeline writes back at that point only, and that block is the whole [1, 1] result array. The program
  then reshapes the array to a scalar. So every weakly fair execution ends with the result at the mean, over the
  2048 graphs taken block by block, of the graph losses of the two argument arrays, and the arguments unchanged.
-/
import proofs.«143556_j11244224381067_1_alg».proof.Proof.KernelAcc
import proofs.«143556_j11244224381067_1_alg».proof.Proof.KernelTail
import proofs.«143556_j11244224381067_1_alg».proof.Proof.SpecTotal
import Idealize.ShloMosaic.Lib.StableHlo.Run

noncomputable section

open Idealize.ShloMosaic Idealize.ShloMosaic.TcCoe Idealize.SL.Sem
open Idealize.ShloMosaic.Pipeline (Dat)

namespace Cert.KernelIdeal.Total

open Cert.KernelIdeal Cert.KernelIdeal.Gen Cert.KernelIdeal.Acc Cert.KernelIdeal.Payload Cert.Loss Idealize.ShloMosaic.ValueIdx

variable (m : (ℓ : Loc nD τ sig) → Buf (Elt Ideal) ℓ) (ρ : Dev nD → PrngReg)

/-! ## The input blocks -/

/-- Block `t` of an input starts at row block `t`, column block 0. -/
theorem idx_facts0 : ∀ t : Fin cfg0.N, win0_0.index t 0 = t.val ∧ win0_0.index t 1 = 0 :=
  (by decide +kernel : ∀ t : Fin grid0.N, win0_0.index t 0 = t.val ∧ win0_0.index t 1 = 0)
theorem idx_facts1 : ∀ t : Fin cfg0.N, win0_1.index t 0 = t.val ∧ win0_1.index t 1 = 0 :=
  (by decide +kernel : ∀ t : Fin grid0.N, win0_1.index t 0 = t.val ∧ win0_1.index t 1 = 0)
/-- The output's one block is block (0, 0) at every point. -/
theorem idx_facts2 : ∀ t : Fin cfg0.N, win0_2.index t 0 = 0 ∧ win0_2.index t 1 = 0 :=
  (by decide +kernel : ∀ t : Fin grid0.N, win0_2.index t 0 = 0 ∧ win0_2.index t 1 = 0)

/-- The two argument arrays as arrays of extended reals. -/
abbrev X0 (c : Dev nD) : (⟨2, ![131072, 256]⟩ : Shape).Idx → EReal := m ((c : Thread nD τ).loc main_arg0)
abbrev X1 (c : Dev nD) : (⟨2, ![131072, 256]⟩ : Shape).Idx → EReal := m ((c : Thread nD τ).loc main_arg1)

theorem iblk0_apply (c : Dev nD) (t : Fin cfg0.N) (r : Fin 4096) (d : Fin 256) (hr : t.val * 4096 + r.val < 131072) :
    (iblk m c 0 t : Vec Ideal S4096x256 .f32) (ix2 r d) = X0 m c (ix2 ⟨t.val * 4096 + r.val, hr⟩ d) := by
  unfold iblk
  rw [View.read_apply]
  show V m c main_arg0 _ = m ((c : Thread nD τ).loc main_arg0) _
  rw [V_main_arg0]
  refine congrArg (m ((c : Thread nD τ).loc main_arg0)) (funext fun a => Fin.ext ?_)
  match a with
  | ⟨0, _⟩ =>
    show win0_0.index t 0 * 4096 + 1 * r.val = t.val * 4096 + r.val
    rw [(idx_facts0 t).1]; omega
  | ⟨1, _⟩ =>
    show win0_0.index t 1 * 256 + 1 * d.val = d.val
    rw [(idx_facts0 t).2]; omega

theorem iblk1_apply (c : Dev nD) (t : Fin cfg0.N) (r : Fin 4096) (d : Fin 256) (hr : t.val * 4096 + r.val < 131072) :
    (iblk m c 1 t : Vec Ideal S4096x256 .f32) (ix2 r d) = X1 m c (ix2 ⟨t.val * 4096 + r.val, hr⟩ d) := by
  unfold iblk
  rw [View.read_apply]
  show V m c main_arg1 _ = m ((c : Thread nD τ).loc main_arg1) _
  rw [V_main_arg1]
  refine congrArg (m ((c : Thread nD τ).loc main_arg1)) (funext fun a => Fin.ext ?_)
  match a with
  | ⟨0, _⟩ =>
    show win0_1.index t 0 * 4096 + 1 * r.val = t.val * 4096 + r.val
    rw [(idx_facts1 t).1]; omega
  | ⟨1, _⟩ =>
    show win0_1.index t 1 * 256 + 1 * d.val = d.val
    rw [(idx_facts1 t).2]; omega

/-- Graph `b` of block `t` is graph `64 t + b` of the array. -/
theorem blockRows0 (c : Dev nD) (t : Fin cfg0.N) (ht : t.val < 32) (b : Fin 64) :
    blockRows (iblk m c 0 t) b = rows (X0 m c) (gidx ⟨t.val, ht⟩ b) := by
  funext a d
  have hb := b.isLt; have ha := a.isLt
  refine (iblk0_apply m c t ⟨b.val * 64 + a.val, by omega⟩ d (by show t.val * 4096 + (b.val * 64 + a.val) < 131072; omega)).trans ?_
  refine congrArg (fun p => X0 m c (ix2 p d)) (Fin.ext ?_)
  show t.val * 4096 + (b.val * 64 + a.val) = (t.val * 64 + b.val) * 64 + a.val
  omega

theorem blockRows1 (c : Dev nD) (t : Fin cfg0.N) (ht : t.val < 32) (b : Fin 64) :
    blockRows (iblk m c 1 t) b = rows (X1 m c) (gidx ⟨t.val, ht⟩ b) := by
  funext a d
  have hb := b.isLt; have ha := a.isLt
  refine (iblk1_apply m c t ⟨b.val * 64 + a.val, by omega⟩ d (by show t.val * 4096 + (b.val * 64 + a.val) < 131072; omega)).trans ?_
  refine congrArg (fun p => X1 m c (ix2 p d)) (Fin.ext ?_)
  show t.val * 4096 + (b.val * 64 + a.val) = (t.val * 64 + b.val) * 64 + a.val
  omega

/-! ## The running total as a sum -/

/-- The block loss of point `t` (zero past the grid). -/
def blockLossAt (c : Dev nD) (t : ℕ) : EReal :=
  if h : t < cfg0.N then blockLoss (iblk m c 0 ⟨t, h⟩) (iblk m c 1 ⟨t, h⟩) else 0

theorem blockLossAt_of_lt (c : Dev nD) (t : ℕ) (h : t < cfg0.N) :
    blockLossAt m c t = blockLoss (iblk m c 0 ⟨t, h⟩) (iblk m c 1 ⟨t, h⟩) := by
  unfold blockLossAt; rw [dif_pos h]

theorem acc_apply (c : Dev nD) : ∀ (n : ℕ) (h : n < cfg0.N) (u v : Fin 1),
    acc m c n h (ix2 u v) = ∑ t ∈ Finset.range (n + 1), blockLossAt m c t
  | 0, h, u, v => by
    refine (pay1_block (iblk m c 0 ⟨0, h⟩) (iblk m c 1 ⟨0, h⟩) (k0_pay3 (F := Ideal)) u v).trans ?_
    rw [pay3_apply, zero_add, Finset.sum_range_one, blockLossAt_of_lt m c 0 h]
  | n + 1, h, u, v => by
    refine (pay1_block (iblk m c 0 ⟨n + 1, h⟩) (iblk m c 1 ⟨n + 1, h⟩) (acc m c n (Nat.lt_of_succ_lt h)) u v).trans ?_
    rw [acc_apply c n (Nat.lt_of_succ_lt h) u v, Finset.sum_range_succ _ (n + 1), blockLossAt_of_lt m c (n + 1) h]

/-- The result: the sum of the 32 block losses divided by 2048. -/
def result (c : Dev nD) : EReal :=
  Ideal.div (∑ t ∈ Finset.range 32, blockLossAt m c t) (Ideal.ofBits .f32 0x45000000#32)

theorem result_eq (c : Dev nD) : result m c = totalJoint (X0 m c) (X1 m c) := by
  unfold result totalJoint
  refine congrArg (Ideal.div · (Ideal.ofBits .f32 0x45000000#32)) ?_
  rw [← Fin.sum_univ_eq_sum_range (blockLossAt m c) 32]
  refine Finset.sum_congr rfl fun t _ => ?_
  have ht : t.val < cfg0.N := lt_of_lt_of_eq t.isLt N_0.symm
  rw [blockLossAt_of_lt m c t.val ht]
  unfold blockLoss
  refine Finset.sum_congr rfl fun b _ => ?_
  rw [blockRows0 m c ⟨t.val, ht⟩ t.isLt b, blockRows1 m c ⟨t.val, ht⟩ t.isLt b]

/-- The result array: its one entry is the result. -/
abbrev resultArr (c : Dev nD) : Buf (Elt Ideal) ((c : Thread nD τ).loc main_v0) := fun _ => result m c

theorem lastBlock_eq (c : Dev nD) (t : Fin cfg0.N) (h31 : t.val = 31) :
    k0_pay2 (F := Ideal) (acc m c t.val t.isLt) = resultArr m c := by
  funext j
  obtain ⟨u, v, rfl⟩ : ∃ u v : Fin 1, j = ix2 u v := ⟨j 0, j 1, eq_ix2 j⟩
  rw [pay2_apply, acc_apply m c t.val t.isLt u v, h31]
  rfl

/-! ## The result array and the run -/

/-- The last point of the grid. -/
def tLast : Fin cfg0.N := ⟨31, lt_of_lt_of_eq (by decide : 31 < 32) N_0.symm⟩

/-- The output's block has extent one along both axes at every point. -/
theorem xsize_facts2 : ∀ t : Fin cfg0.N, win0_2.xsize (grid0.coords t) 0 = 1 ∧ win0_2.xsize (grid0.coords t) 1 = 1 :=
  (by decide +kernel : ∀ t : Fin grid0.N, win0_2.xsize (grid0.coords t) 0 = 1 ∧ win0_2.xsize (grid0.coords t) 1 = 1)

/-- The write-back at the last point writes the result array: its block is the whole array. -/
theorem flushed_eq (c : Dev nD) (t : Fin cfg0.N) (hf : (cfg0.win 2).flush t = true) :
    (dats m 0 c).flushed 2 t = ((cfg0.win 2).blk t).view.read (Elt Ideal) (resultArr m c) := by
  have hN : cfg0.N = 32 := N_0
  have h31 : t.val = 31 := by have := (flush0_2 t).mp hf; have := t.isLt; omega
  show (cfg0.win 2).cut (grid0.coords t) ((dats m 0 c).after 2 t) = _
  rw [after0_2, outsAt_fst_last m c t h31, lastBlock_eq m c t h31]
  have hz' : (fun a => win0_2.index t a * main_v0.ty.shape.size a) = fun _ => 0 :=
    funext fun a => by
      match a with
      | ⟨0, _⟩ => show win0_2.index t 0 * _ = 0; rw [(idx_facts2 t).1, Nat.zero_mul]
      | ⟨1, _⟩ => show win0_2.index t 1 * _ = 0; rw [(idx_facts2 t).2, Nat.zero_mul]
  exact (Memref.read_access_unit_zero (Elt Ideal) main_v0 hz' (fun a => by rw [congrFun hz' a]; simp) (resultArr m c)).symm

/-- The result array after the run. -/
theorem final_o (c : Dev nD) : (dats m 0 c).arrAt 2 cfg0.N = resultArr m c :=
  (dats m 0 c).arrAt_eq_of_cover 2 (resultArr m c) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [(idx_facts2 tLast).1, (xsize_facts2 tLast).1, Nat.zero_mul]; omega
      | ⟨1, _⟩ =>
        show win0_2.index tLast 1 * win0_2.size 1 ≤ (i 1 : Nat) ∧ (i 1 : Nat) < win0_2.index tLast 1 * win0_2.size 1 + win0_2.xsize (grid0.coords tLast) 1
        rw [(idx_facts2 tLast).2, (xsize_facts2 tLast).2, Nat.zero_mul]; omega⟩

/-- The reshape of the [1, 1] result array to a scalar. -/
theorem tail_eq (c : Dev nD) :
    Pipeline.afterTail₀ cfgs (dats m) 0 (V0 m) [hostOps1] c main_v1 = fun _ => result m c := by
  unfold Pipeline.afterTail₀
  show StableHlo.after hostOps1 _ (Proc.devRef .tc main_v1) = _
  after_results
  funext i
  show shapeCast S_ (Pipeline.withArrays (cfgs 0).spec c (V0 m c) (fun w => (dats m 0 c).arrAt w (cfgs 0).N) (Proc.devRef .tc main_v0))
      shapeCasts_S1x1_S_ i = result m c
  have e : Pipeline.withArrays (cfgs 0).spec c (V0 m c) (fun w => (dats m 0 c).arrAt w (cfgs 0).N) (Proc.devRef .tc main_v0)
      = resultArr m c :=
    (Pipeline.withArrays_arr (cfgs 0).spec launch0.win.arr_inj c (V0 m c) (fun w => (dats m 0 c).arrAt w (cfgs 0).N) 2).trans (final_o m c)
  rw [e]
  rfl

/-- Every weakly fair execution of the program ends with the result at the block-by-block mean of the graph losses
    and the four arguments unchanged. -/
theorem run : θ_run defs (onTc (τ := τ) (main (F := Ideal))) ⟨m, fun _ => 0, ρ⟩ fun r => ∀ c : Dev nD,
      r.2.mem ((c.tc : Thread nD τ).loc main_v1) = (fun _ => result m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v1 (Pipeline.mem_restRefs_of main_v1 (by decide) (by decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c)⟩)
    (run_main m ρ)

end Cert.KernelIdeal.Total

end
-- ==== Proof.Finite.lean ====
/-
  FINITENESS FROM THE PRECONDITION. The precondition states, for each of the two float arrays, that the conjunction over
  all elements of the comparison `|x i| < +∞` is true, and joins the two conjunctions by `and`. Read at the ideal
  (extended-real) instance: `|a| = max a (-a)`, the bound is the f32 word `0x7F800000 = ⊤`, and the comparison is the
  strict order of the extended reals. A conjunction that is 1 had a 1 at every element, so every element satisfies
  `max a (-a) < ⊤`; this excludes `a = ⊤` (the bound itself) and `a = ⊥` (since `-⊥ = ⊤`), leaving a real number.
-/
import proofs.«143556_j11244224381067_1_alg».proof.Pre_finite_inputs
import Idealize.ShloMosaic.PureOps.Ideal
import Idealize.ShloMosaic.PureOps.Ideal.Laws
import Idealize.ShloMosaic.Lib.ValueIdx
import Idealize.ShloMosaic.Lib.ReduceAll

open Idealize.ShloMosaic

namespace Cert.Proof.Finite

/-- The f32 word `0x7F800000` (sign 0, exponent all ones, fraction 0) is `+∞`. -/
theorem ofBits_inf : Ideal.ofBits .f32 0x7F800000#32 = (⊤ : EReal) := by
  simp [Ideal.ofBits, Ideal.ieee]

/-- An extended real whose absolute value `max a (-a)` lies strictly below `+∞` is a real number:
    `⊥` has `-⊥ = ⊤`, and `⊤` is itself the bound, so neither passes the strict comparison. -/
theorem real_of_abs_lt_top (a : EReal) (h : max a (-a) < ⊤) : ∃ r : ℝ, a = (r : EReal) := by
  induction a using EReal.rec with
  | bot => simp at h
  | coe r => exact ⟨r, rfl⟩
  | top => simp at h

open Cert.Pre_finite_inputs in
/-- One array's half of the precondition: if the conjunction over all elements of `|x i| < +∞` is true,
    every element of `x` is a real number. The rank-0 result has a single index, so every element of the
    compared array feeds the one conjunction. -/
theorem real_of_all [Facts] (x : FVec Ideal S131072x256 .f32)
    (h : Host.reduce IntOp.andi
          (cmpf .olt (Host.absf x)
            (broadcastInDim S131072x256 ![] Facts.bcast_S_S131072x256 (constant (F := Ideal) S_ .f32 0x7F800000#32)))
          (constantI S_ 1 1#1) Facts.reducesTo_S131072x256_S_d0_1 Facts.h_S_ ValueIdx.ix0 = 1#1) :
    ∀ i, ∃ r : ℝ, x i = (r : EReal) := by
  intro i
  haveI : Subsingleton S_.Idx := ⟨fun a b => funext fun d => d.elim0⟩
  have e := Host.reduce_andi_all _ _ _ _ _ h i
  -- the element of the compared array at `i`: the broadcast bound read at any index is the one constant
  have e' : Ideal.cmp .olt (max (x i) (-(x i))) (Ideal.ofBits .f32 0x7F800000#32) = 1#1 := e
  rw [ofBits_inf] at e'
  refine real_of_abs_lt_top (x i) ?_
  by_contra hn
  simp [Ideal.cmp, hn] at e'

/-- Both float inputs of a point that satisfies the precondition are real-valued everywhere. -/
theorem real_of_pre [Cert.Pre_finite_inputs.Facts]
    (x0 x1 : FVec Ideal Cert.Pre_finite_inputs.S131072x256 .f32) (x2 x3 : IVec Cert.Pre_finite_inputs.S131072 32)
    (h : Cert.Pre_finite_inputs.fn (F := Ideal) x0 x1 x2 x3 = fun _ => 1#1) :
    (∀ i, ∃ r : ℝ, x0 i = (r : EReal)) ∧ (∀ i, ∃ r : ℝ, x1 i = (r : EReal)) := by
  have h0 := congrFun h ValueIdx.ix0
  dsimp only [Cert.Pre_finite_inputs.fn] at h0
  obtain ⟨ha, hb⟩ := IntOp.andi_eq_one.1 h0
  exact ⟨real_of_all x0 ha, real_of_all x1 hb⟩

end Cert.Proof.Finite
-- ==== Proof.lean ====
/-
  A contrastive loss over 2048 graphs of 64 atoms with 256 features each, computed by a pipelined kernel and by a
  plain array program, agree on the extended reals whenever every input entry is finite.

  Both programs divide every row of the reactant and product features by its Euclidean norm clamped from below,
  take per graph the 64 × 64 matrix of inner products divided by the temperature, turn each row into
  log-probabilities, and average minus the diagonal log-probabilities over the atoms and then over the graphs.
  They differ in three ways. The kernel works block by block (32 blocks of 64 graphs) and keeps a running total,
  where the array program sums over all graphs at once: sums of extended reals may be regrouped freely. The kernel
  picks the diagonal by multiplying with an identity mask and summing, where the array program gathers it: a
  product with zero is zero on all of the extended reals. And the kernel subtracts `m + L` from a logit at once,
  where the array program subtracts the row maximum `m` and then the log-sum `L`: this needs `m` finite, which
  follows from the inputs being finite (the clamped norms are positive, so the normalized rows and their inner
  products are real). The idealization rewrote nothing, so the kernel and its idealization are one program text.
-/
import proofs.«143556_j11244224381067_1_alg».proof.Defs
import proofs.«143556_j11244224381067_1_alg».proof.Proof.Gen.Kernel
import proofs.«143556_j11244224381067_1_alg».proof.Proof.Gen.Kernel.Skeleton
import proofs.«143556_j11244224381067_1_alg».proof.Proof.Gen.Kernel.Launch
import proofs.«143556_j11244224381067_1_alg».proof.Proof.Gen.Kernel.Points
import proofs.«143556_j11244224381067_1_alg».proof.Proof.Gen.Kernel.Frame
import proofs.«143556_j11244224381067_1_alg».proof.Proof.Gen.KernelIdeal
import proofs.«143556_j11244224381067_1_alg».proof.Proof.Gen.KernelIdeal.Skeleton
import proofs.«143556_j11244224381067_1_alg».proof.Proof.Gen.KernelIdeal.Launch
import proofs.«143556_j11244224381067_1_alg».proof.Proof.Gen.KernelIdeal.Points
import proofs.«143556_j11244224381067_1_alg».proof.Proof.Gen.KernelIdeal.Frame
import proofs.«143556_j11244224381067_1_alg».proof.Proof.Gen.ReferenceIdeal
import proofs.«143556_j11244224381067_1_alg».proof.Proof.Gen.Pre_finite_inputs
import proofs.«143556_j11244224381067_1_alg».proof.Proof.RefReadPatched
import proofs.«143556_j11244224381067_1_alg».proof.Proof.RefValue
import proofs.«143556_j11244224381067_1_alg».proof.Proof.KernelValue
import proofs.«143556_j11244224381067_1_alg».proof.Proof.Finite
import Idealize.ShloMosaic.Adequacy
import Idealize.ShloMosaic.Init

noncomputable section

namespace Cert.Proof

open Idealize.ShloMosaic Idealize.SL.Sem

/-- The array program runs, and leaves its arguments as they were: its run with the result dropped. -/
theorem frame_reference :
    @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.ValueP.run (F := Ideal) m ρ)

/-- On finite inputs both programs end with the same extended real: the kernel's block-by-block mean in its own
    grouping of the log-softmax is the mean over all graphs in the array program's grouping. -/
theorem algebraic :
    @Cert.algebraic_KernelIdeal_ReferenceIdeal Cert.KernelIdeal.Gen.facts Cert.ReferenceIdeal.Gen.facts
      Cert.Pre_finite_inputs.Gen.facts := by
  intro m ρ m' ρ' hpre hagree
  have hfin := fun c => @Cert.Proof.Finite.real_of_pre Cert.Pre_finite_inputs.Gen.facts _ _ _ _ (hpre c)
  refine ⟨fun c => fun _ => Cert.KernelIdeal.Total.result m c, Cert.KernelIdeal.Total.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v22_eq, Cert.ReferenceIdeal.RefValue.result_eq, (hagree c).1, (hagree c).2.1]
  funext _
  show Cert.Loss.total _ _ = Cert.KernelIdeal.Total.result m c
  rw [Cert.KernelIdeal.Total.result_eq]
  exact (Cert.Loss.totalJoint_eq _ _ (hfin c).1 (hfin c).2).symm

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ, frame_reference, trivial, algebraic⟩

end Cert.Proof

end
